-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S64x256 : Shape := ⟨2, ![64, 256]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S64x256 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x4 .f32) (main_arg3 : FVec F S128x128 .f32) (main_arg4 : FVec F S128 .f32) (main_arg5 : FVec F S128x128 .f32) (main_arg6 : FVec F S128 .f32) (main_arg7 : FVec F S64x256 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S64x256 : Shape := ⟨2, ![64, 256]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S8000x128 : Shape := ⟨2, ![8000, 128]⟩
abbrev S8000x1 : Shape := ⟨2, ![8000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S64x128 : Shape := ⟨2, ![64, 128]⟩
abbrev S128x64 : Shape := ⟨2, ![128, 64]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 116
  | .vmem => 49
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x4, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x256, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S1600000, .f32⟩
  | .hbm, ⟨17, _⟩ => ⟨S1600000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1600000, .f32⟩
  | .hbm, ⟨23, _⟩ => ⟨S1600000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1600000, .f32⟩
  | .hbm, ⟨28, _⟩ => ⟨S1600000, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S1600000, .f32⟩
  | .hbm, ⟨34, _⟩ => ⟨S1600000, .f32⟩
  | .hbm, ⟨35, _⟩ => ⟨S_, .f32⟩
  | .hbm, ⟨36, _⟩ => ⟨S1600000, .f32⟩
  | .hbm, ⟨37, _⟩ => ⟨S1600000, .f32⟩
  | .hbm, ⟨38, _⟩ => ⟨S_, .f32⟩
  | .hbm, ⟨39, _⟩ => ⟨S_, .f32⟩
  | .hbm, ⟨40, _⟩ => ⟨S1600000, .f32⟩
  | .hbm, ⟨41, _⟩ => ⟨S1600000, .f32⟩
  | .hbm, ⟨42, _⟩ => ⟨S_, .f32⟩
  | .hbm, ⟨43, _⟩ => ⟨S100000, .f32⟩
  | .hbm, ⟨44, _⟩ => ⟨S1600000x1, .i32⟩
  | .hbm, ⟨45, _⟩ => ⟨S100000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000, .f32⟩
  | .hbm, ⟨59, _⟩ => ⟨S1600000, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000, .f32⟩
  | .hbm, ⟨69, _⟩ => ⟨S1600000, .f32⟩
  | .hbm, ⟨70, _⟩ => ⟨S128x128, .f32⟩
  | .hbm, ⟨71, _⟩ => ⟨S128x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x1, .f32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S100000x1, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S1600000x1, .f32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S100000x1, .f32⟩
  | .hbm, ⟨108, _⟩ => ⟨S1x128, .f32⟩
  | .hbm, ⟨109, _⟩ => ⟨S100000x128, .f32⟩
  | .hbm, ⟨110, _⟩ => ⟨S64x128, .f32⟩
  | .hbm, ⟨111, _⟩ => ⟨S128x64, .f32⟩
  | .hbm, ⟨112, _⟩ => ⟨S64x128, .f32⟩
  | .hbm, ⟨113, _⟩ => ⟨S128x64, .f32⟩
  | .hbm, ⟨114, _⟩ => ⟨S1x64, .f32⟩
  | .hbm, ⟨115, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S8000x128, .f32⟩
  | .local _ .vmem, ⟨26, _⟩ => ⟨S8000x128, .f32⟩
  | .local _ .vmem, ⟨27, _⟩ => ⟨S8000x1, .f32⟩
  | .local _ .vmem, ⟨28, _⟩ => ⟨S8000x1, .f32⟩
  | .local _ .vmem, ⟨29, _⟩ => ⟨S8000x128, .f32⟩
  | .local _ .vmem, ⟨30, _⟩ => ⟨S8000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S128x64, .f32⟩
  | .local _ .vmem, ⟨45, _⟩ => ⟨S128x64, .f32⟩
  | .local _ .vmem, ⟨46, _⟩ => ⟨S1x64, .f32⟩
  | .local _ .vmem, ⟨47, _⟩ => ⟨S10000x64, .f32⟩
  | .local _ .vmem, ⟨48, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_11 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_13 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_16 : Ref sig .tc := ⟨.hbm, 92, rfl⟩
abbrev main_v63 : Ref sig .tc := ⟨.hbm, 93, rfl⟩
abbrev main_v64 : Ref sig .tc := ⟨.hbm, 94, rfl⟩
abbrev main_c_17 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg5_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem5_1 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1600000x4_S1600000_d1 : S1600000x4.ReducesTo [1] S1600000
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1600000_S1600000x1 : S1600000.ShapeCasts S1600000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10000x128_S10000x128 : S10000x128.ShapeCasts S10000x128
  slices_S64x256_S64x128_0_0 : S64x256.Slices ![0, 0] S64x128
  transposes_S64x128_S128x64_1_0 : S64x128.Transposes [1, 0] S128x64
  slices_S64x256_S64x128_0_128 : S64x256.Slices ![0, 128] S64x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S1600000x128.size a
  hwx4_0 : ∀ i : grid4.Coords, EltTy.bits .f32 = 32 ∨ (Rect.block (s := S1600000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1600000x1.size a
  hwx4_1 : ∀ i : grid4.Coords, EltTy.bits .f32 = 32 ∨ (Rect.block (s := S1600000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S1600000x128.size a
  hwx4_2 : ∀ i : grid4.Coords, EltTy.bits .f32 = 32 ∨ (Rect.block (s := S1600000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S100000x128.size a
  hwx6_1 : ∀ i : grid6.Coords, EltTy.bits .f32 = 32 ∨ (Rect.block (s := S100000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v75) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v61) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v79) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v82) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S64x256 : Shape := ⟨2, ![64, 256]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x256 : Shape := ⟨2, ![100000, 256]⟩
abbrev S256x64 : Shape := ⟨2, ![256, 64]⟩
abbrev S100000x64 : Shape := ⟨2, ![100000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S1600000x4, .f32⟩
  | 3 => ⟨S128x128, .f32⟩
  | 4 => ⟨S128, .f32⟩
  | 5 => ⟨S128x128, .f32⟩
  | 6 => ⟨S128, .f32⟩
  | 7 => ⟨S64x256, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S1600000, .f32⟩
  | 17 => ⟨S1600000, .f32⟩
  | 18 => ⟨S_, .f32⟩
  | 19 => ⟨S_, .f32⟩
  | 20 => ⟨S_, .f32⟩
  | 21 => ⟨S_, .f32⟩
  | 22 => ⟨S1600000, .f32⟩
  | 23 => ⟨S1600000, .f32⟩
  | 24 => ⟨S_, .f32⟩
  | 25 => ⟨S_, .f32⟩
  | 26 => ⟨S_, .f32⟩
  | 27 => ⟨S1600000, .f32⟩
  | 28 => ⟨S1600000, .f32⟩
  | 29 => ⟨S_, .f32⟩
  | 30 => ⟨S_, .f32⟩
  | 31 => ⟨S_, .i1⟩
  | 32 => ⟨S_, .f32⟩
  | 33 => ⟨S1600000, .f32⟩
  | 34 => ⟨S1600000, .f32⟩
  | 35 => ⟨S_, .f32⟩
  | 36 => ⟨S1600000, .f32⟩
  | 37 => ⟨S1600000, .f32⟩
  | 38 => ⟨S_, .f32⟩
  | 39 => ⟨S_, .f32⟩
  | 40 => ⟨S1600000, .f32⟩
  | 41 => ⟨S1600000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S100000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000, .f32⟩
  | 69 => ⟨S1600000, .f32⟩
  | 70 => ⟨S128x128, .f32⟩
  | 71 => ⟨S100000x128, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x128, .f32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S128x128, .f32⟩
  | 100 => ⟨S100000x128, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000, .f32⟩
  | 118 => ⟨S100000x1, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x256, .f32⟩
  | 1 => ⟨S256x64, .f32⟩
  | 2 => ⟨S100000x64, .f32⟩
  | 3 => ⟨S1x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_11 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_13 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1600000x4_S1600000_d1 : S1600000x4.ReducesTo [1] S1600000
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x64_S100000x64_1_0_0_1_n_n_wf : DotDims.WF S100000x256 S256x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KernelRun.lean ====
/-
  The idealized kernel program's run with its result named: every weakly fair execution of @main terminates, nothing
  faulting, with the argument arrays as launched and the result buffer holding what the last segment boundary's
  contents hold there — the fold of every host stretch and every region's write-backs over the launch memory. The
  launch over the program's seventeen segments is the frame's; the result is read off the last thread state exactly
  as the arguments are.
-/
import proofs.«100481_j63917703299286_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_named : θ_run defs (onTc (τ := τ) (main (F := F))) ⟨m, fun _ => 0, ρ⟩ (fun r => ∀ c : Dev nD,
      r.2.mem ((c.tc : Thread nD τ).loc main_v83) = W17 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v83 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c)⟩)

end Cert.KernelIdeal.Run

end
-- ==== Proof.LibGcnSpec.lean ====
/-
  The four array functions a two-layer graph convolution with a concatenating head is made of, as functions of
  whole arrays over the extended reals, index by index:
  * `mm`   — a matrix product: entry (p, j) is the sum over c of h(p, c) · w(c, j);
  * `edge` — every row of a matrix scaled by that row's entry of a one-column matrix;
  * `node` — the rectified combination  max(agg + (d · d) · hw + b, 0), d a column, b a row;
  * `head` — two matrix products added, plus a row.
  The column and the row are taken in their two-axis forms ([n, 1] and [1, d]), which is how a kernel is handed them.
  Also the one law the head needs: a sum over 2d terms is the sum of its first d and its last d terms.
-/
import Idealize.ShloMosaic.PureOps.Ideal
import Idealize.ShloMosaic.Lib.ValueIdx

noncomputable section

open scoped BigOperators

namespace Cert.Gcn

open Idealize.ShloMosaic Idealize.ShloMosaic.ValueIdx

/-- An `[n, m]` array of extended reals. -/
abbrev Mat (n m : ℕ) := FVec Ideal (⟨2, ![n, m]⟩ : Shape) .f32

/-- The zero every rectification compares against: the all-zero word, never evaluated. -/
abbrev zeroWord : Ideal .f32 := Ideal.ofBits .f32 0x00000000#32

/-- Entry (p, j) of the product of `h` and `w`. -/
def mmAt {n k m : ℕ} (h : Mat n k) (w : Mat k m) (p : Fin n) (j : Fin m) : EReal :=
  ∑ c : Fin k, h (ix2 p c) * w (ix2 c j)

/-- The matrix product. -/
def mm {n k m : ℕ} (h : Mat n k) (w : Mat k m) : Mat n m := fun i => mmAt h w (i 0) (i 1)

theorem mm_apply {n k m : ℕ} (h : Mat n k) (w : Mat k m) (p : Fin n) (j : Fin m) :
    mm h w (ix2 p j) = ∑ c : Fin k, h (ix2 p c) * w (ix2 c j) := rfl

/-- Each row of `g` times that row's entry of the column `s`. -/
def edge {e d : ℕ} (g : Mat e d) (s : Mat e 1) : Mat e d := fun i => g i * s (ix2 (i 0) (0 : Fin 1))

theorem edge_apply {e d : ℕ} (g : Mat e d) (s : Mat e 1) (p : Fin e) (q : Fin d) :
    edge g s (ix2 p q) = g (ix2 p q) * s (ix2 p (0 : Fin 1)) := rfl

/-- The rectified combination of an aggregate, a self term scaled by the square of a column, and a bias row. -/
def node {n d : ℕ} (agg hw : Mat n d) (s : Mat n 1) (b : Mat 1 d) : Mat n d := fun i =>
  max (agg i + (s (ix2 (i 0) (0 : Fin 1)) * s (ix2 (i 0) (0 : Fin 1))) * hw i + b (ix2 (0 : Fin 1) (i 1))) zeroWord

theorem node_apply {n d : ℕ} (agg hw : Mat n d) (s : Mat n 1) (b : Mat 1 d) (p : Fin n) (q : Fin d) :
    node agg hw s b (ix2 p q)
      = max (agg (ix2 p q) + (s (ix2 p (0 : Fin 1)) * s (ix2 p (0 : Fin 1))) * hw (ix2 p q) + b (ix2 (0 : Fin 1) q)) zeroWord := rfl

/-- Two products added, plus a bias row. -/
def head {n d o : ℕ} (h1 h2 : Mat n d) (wa wb : Mat d o) (b : Mat 1 o) : Mat n o := fun i =>
  (mmAt h1 wa (i 0) (i 1) + mmAt h2 wb (i 0) (i 1)) + b (ix2 (0 : Fin 1) (i 1))

theorem head_apply {n d o : ℕ} (h1 h2 : Mat n d) (wa wb : Mat d o) (b : Mat 1 o) (p : Fin n) (j : Fin o) :
    head h1 h2 wa wb b (ix2 p j)
      = ((∑ c : Fin d, h1 (ix2 p c) * wa (ix2 c j)) + ∑ c : Fin d, h2 (ix2 p c) * wb (ix2 c j)) + b (ix2 (0 : Fin 1) j) := rfl

/-! ## The same entries, met from the other side: a value built from termwise-equal pieces IS the function's entry -/

theorem mm_eq_of {n k m : ℕ} (h : Mat n k) (w : Mat k m) (i : (⟨2, ![n, m]⟩ : Shape).Idx) (f : Fin k → EReal)
    (hf : ∀ c, f c = h (ix2 (i 0) c) * w (ix2 c (i 1))) : ∑ c : Fin k, f c = mm h w i := by
  have e : f = fun c => h (ix2 (i 0) c) * w (ix2 c (i 1)) := funext hf
  subst e; rfl

theorem edge_eq_of {e d : ℕ} (g : Mat e d) (s : Mat e 1) (i : (⟨2, ![e, d]⟩ : Shape).Idx) (xg xs : EReal)
    (hg : xg = g i) (hs : xs = s (ix2 (i 0) (0 : Fin 1))) : xg * xs = edge g s i := by
  subst hg hs; rfl

theorem node_eq_of {n d : ℕ} (agg hw : Mat n d) (s : Mat n 1) (b : Mat 1 d) (i : (⟨2, ![n, d]⟩ : Shape).Idx)
    (xa xh xs xb : EReal) (ha : xa = agg i) (hh : xh = hw i) (hs : xs = s (ix2 (i 0) (0 : Fin 1)))
    (hb : xb = b (ix2 (0 : Fin 1) (i 1))) : max (xa + (xs * xs) * xh + xb) zeroWord = node agg hw s b i := by
  subst ha hh hs hb; rfl

theorem head_eq_of {n d o : ℕ} (h1 h2 : Mat n d) (wa wb : Mat d o) (b : Mat 1 o) (i : (⟨2, ![n, o]⟩ : Shape).Idx)
    (f g : Fin d → EReal) (x : EReal) (hf : ∀ c, f c = h1 (ix2 (i 0) c) * wa (ix2 c (i 1)))
    (hg : ∀ c, g c = h2 (ix2 (i 0) c) * wb (ix2 c (i 1))) (hx : x = b (ix2 (0 : Fin 1) (i 1))) :
    ((∑ c : Fin d, f c) + ∑ c : Fin d, g c) + x = head h1 h2 wa wb b i := by
  have e1 : f = fun c => h1 (ix2 (i 0) c) * wa (ix2 c (i 1)) := funext hf
  have e2 : g = fun c => h2 (ix2 (i 0) c) * wb (ix2 c (i 1)) := funext hg
  subst e1 e2 hx; rfl

/-! ## Layout forms, index by index -/

/-- A vector as a one-column matrix. -/
def colOf {n : ℕ} (v : FVec Ideal (⟨1, ![n]⟩ : Shape) .f32) : Mat n 1 := fun i => v (ix1 (i 0))

/-- A vector as a one-row matrix. -/
def rowOf {d : ℕ} (v : FVec Ideal (⟨1, ![d]⟩ : Shape) .f32) : Mat 1 d := fun i => v (ix1 (i 1))

/-- The transpose of the first `d` columns of an `[o, d + d]` matrix. -/
def trLeft {o d : ℕ} (w : Mat o (d + d)) : Mat d o := fun i => w (ix2 (i 1) (Fin.castAdd d (i 0)))

/-- The transpose of the last `d` columns of an `[o, d + d]` matrix. -/
def trRight {o d : ℕ} (w : Mat o (d + d)) : Mat d o := fun i => w (ix2 (i 1) (Fin.natAdd d (i 0)))

theorem colOf_apply {n : ℕ} (v : FVec Ideal (⟨1, ![n]⟩ : Shape) .f32) (p : Fin n) (u : Fin 1) :
    colOf v (ix2 p u) = v (ix1 p) := rfl
theorem rowOf_apply {d : ℕ} (v : FVec Ideal (⟨1, ![d]⟩ : Shape) .f32) (u : Fin 1) (q : Fin d) :
    rowOf v (ix2 u q) = v (ix1 q) := rfl
theorem trLeft_apply {o d : ℕ} (w : Mat o (d + d)) (c : Fin d) (j : Fin o) :
    trLeft w (ix2 c j) = w (ix2 j (Fin.castAdd d c)) := rfl
theorem trRight_apply {o d : ℕ} (w : Mat o (d + d)) (c : Fin d) (j : Fin o) :
    trRight w (ix2 c j) = w (ix2 j (Fin.natAdd d c)) := rfl

/-! ## One layer, and the whole network

    The gather of rows and the scatter-add of rows enter as two opaque functions `gath` and `scat`: both programs
    apply the same ones to equal operands, so no statement here ever looks inside them. -/

/-- One graph-convolution layer: project, gather and scale per edge, scatter-add per node, combine and rectify. -/
def layer {n k d e : ℕ} (gath : Mat n d → Mat e d) (scat : Mat e d → Mat n d)
    (h : Mat n k) (w : Mat k d) (nrm : Mat e 1) (dis : Mat n 1) (b : Mat 1 d) : Mat n d :=
  node (scat (edge (gath (mm h w)) nrm)) (mm h w) dis b

/-- Two layers and the head over the two layers' outputs. -/
def out {n k d e o : ℕ} (gath : Mat n d → Mat e d) (scat : Mat e d → Mat n d)
    (x : Mat n k) (w1 : Mat k d) (w2 : Mat d d) (nrm : Mat e 1) (dis : Mat n 1) (b1 b2 : Mat 1 d)
    (wa wb : Mat d o) (br : Mat 1 o) : Mat n o :=
  head (layer gath scat x w1 nrm dis b1) (layer gath scat (layer gath scat x w1 nrm dis b1) w2 nrm dis b2) wa wb br

/-- A sum over `d + d` terms is the sum of the first `d` plus the sum of the last `d`: addition of extended reals
    is commutative and associative, so no finiteness is asked. -/
theorem sum_halves {d : ℕ} (f : Fin (d + d) → EReal) :
    ∑ k : Fin (d + d), f k = (∑ c : Fin d, f (Fin.castAdd d c)) + ∑ c : Fin d, f (Fin.natAdd d c) :=
  Fin.sum_univ_add f

end Cert.Gcn

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.PayIdx.lean ====
/-
  The arithmetic of each kernel body read at one entry of its output block, at the ideal values.
  * the projection body: entry (p, j) is the sum over c of x(p, c) · w(c, j) (a change of float format is the identity
    at the ideal values, and the product is accumulated into the zero splat);
  * the edge body: entry (p, q) is g(p, q) times the column's entry of row p;
  * the node body: entry (p, q) is max(agg(p, q) + (d(p) · d(p)) · hw(p, q) + b(q), 0);
  * the head body: entry (p, j) is the two products' entries added, plus the bias row's entry j.
  Every lemma is stated over variables of the literal block shapes and explicit coordinates.
-/
import proofs.«100481_j63917703299286_2_alg».proof.Proof.Gen.KernelIdeal.Skeleton
import proofs.«100481_j63917703299286_2_alg».proof.Proof.LibGcnSpec
import proofs.«100481_j63917703299286_2_alg».proof.Proof.LibKernelIdx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.LibKernelIdx Cert.Gcn

/-! ## The projection bodies (regions 0 and 3) -/

theorem proj0 (x0 : Vec Ideal S10000x128 .f32) (x1 : Vec Ideal S128x128 .f32) (p : Fin 10000) (j : Fin 128) :
    k0_pay1 x0 x1 (ix2 p j) = ∑ c : Fin 128, x0 (ix2 p c) * x1 (ix2 c j) := by
  unfold k0_pay1
  rw [shapeCast_self]
  exact matmul_zero_apply dot_S10000x128_S128x128_S10000x128_1_0_0_1_n_n_wf none _ _ p j

theorem proj3 (x0 : Vec Ideal S10000x128 .f32) (x1 : Vec Ideal S128x128 .f32) (p : Fin 10000) (j : Fin 128) :
    k3_pay1 x0 x1 (ix2 p j) = ∑ c : Fin 128, x0 (ix2 p c) * x1 (ix2 c j) := by
  unfold k3_pay1
  rw [shapeCast_self, shapeCast_self]
  exact matmul_zero_apply dot_S10000x128_S128x128_S10000x128_1_0_0_1_n_n_wf none _ _ p j

/-! ## The edge bodies (regions 1 and 4) -/

theorem edge1 (x0 : Vec Ideal S8000x128 .f32) (x1 : Vec Ideal S8000x1 .f32) (p : Fin 8000) (q : Fin 128) :
    k1_pay1 x0 x1 (ix2 p q) = x0 (ix2 p q) * x1 (ix2 p (0 : Fin 1)) := by
  unfold k1_pay1
  rw [shapeCast_self, shapeCast_self]
  show x0 (ix2 p q) * broadcastTo S8000x128 x1 broadcasts_S8000x1_S8000x128 (ix2 p q) = _
  rw [broadcastTo_a1_ab_apply x1 broadcasts_S8000x1_S8000x128 p q (0 : Fin 1)]

theorem edge4 (x0 : Vec Ideal S8000x128 .f32) (x1 : Vec Ideal S8000x1 .f32) (p : Fin 8000) (q : Fin 128) :
    k4_pay1 x0 x1 (ix2 p q) = x0 (ix2 p q) * x1 (ix2 p (0 : Fin 1)) := by
  unfold k4_pay1
  rw [shapeCast_self, shapeCast_self]
  show x0 (ix2 p q) * broadcastTo S8000x128 x1 broadcasts_S8000x1_S8000x128 (ix2 p q) = _
  rw [broadcastTo_a1_ab_apply x1 broadcasts_S8000x1_S8000x128 p q (0 : Fin 1)]

/-! ## The node bodies (regions 2 and 5) -/

theorem node2 (d : Vec Ideal S5000x1 .f32) (agg hw : Vec Ideal S5000x128 .f32) (b : Vec Ideal S1x128 .f32)
    (p : Fin 5000) (q : Fin 128) :
    k2_pay1 d agg hw b (ix2 p q)
      = max (agg (ix2 p q) + (d (ix2 p (0 : Fin 1)) * d (ix2 p (0 : Fin 1))) * hw (ix2 p q) + b (ix2 (0 : Fin 1) q)) zeroWord := by
  unfold k2_pay1
  rw [shapeCast_self, shapeCast_self, shapeCast_self, shapeCast_self]
  show max (agg (ix2 p q) + broadcastTo S5000x128 (mulf (F := Ideal) d d) broadcasts_S5000x1_S5000x128 (ix2 p q) * hw (ix2 p q)
      + broadcastTo S5000x128 b broadcasts_S1x128_S5000x128 (ix2 p q)) zeroWord = _
  rw [broadcastTo_a1_ab_apply (mulf (F := Ideal) d d) broadcasts_S5000x1_S5000x128 p q (0 : Fin 1),
    broadcastTo_1b_ab_apply b broadcasts_S1x128_S5000x128 p q]
  rfl

theorem node5 (d : Vec Ideal S5000x1 .f32) (agg hw : Vec Ideal S5000x128 .f32) (b : Vec Ideal S1x128 .f32)
    (p : Fin 5000) (q : Fin 128) :
    k5_pay1 d agg hw b (ix2 p q)
      = max (agg (ix2 p q) + (d (ix2 p (0 : Fin 1)) * d (ix2 p (0 : Fin 1))) * hw (ix2 p q) + b (ix2 (0 : Fin 1) q)) zeroWord := by
  unfold k5_pay1
  rw [shapeCast_self, shapeCast_self, shapeCast_self, shapeCast_self]
  show max (agg (ix2 p q) + broadcastTo S5000x128 (mulf (F := Ideal) d d) broadcasts_S5000x1_S5000x128 (ix2 p q) * hw (ix2 p q)
      + broadcastTo S5000x128 b broadcasts_S1x128_S5000x128 (ix2 p q)) zeroWord = _
  rw [broadcastTo_a1_ab_apply (mulf (F := Ideal) d d) broadcasts_S5000x1_S5000x128 p q (0 : Fin 1),
    broadcastTo_1b_ab_apply b broadcasts_S1x128_S5000x128 p q]
  rfl

/-! ## The head body (region 6) -/

theorem head6 (h1 h2 : Vec Ideal S10000x128 .f32) (wa wb : Vec Ideal S128x64 .f32) (b : Vec Ideal S1x64 .f32)
    (p : Fin 10000) (j : Fin 64) :
    k6_pay1 h1 h2 wa wb b (ix2 p j)
      = ((∑ c : Fin 128, h1 (ix2 p c) * wa (ix2 c j)) + ∑ c : Fin 128, h2 (ix2 p c) * wb (ix2 c j)) + b (ix2 (0 : Fin 1) j) := by
  unfold k6_pay1
  rw [shapeCast_self, shapeCast_self, shapeCast_self, shapeCast_self, shapeCast_self]
  show (matmul dot_S10000x128_S128x64_S10000x64_1_0_0_1_n_n none h1 wa (constant (F := Ideal) S10000x64 .f32 0x00000000#32) (ix2 p j)
      + matmul dot_S10000x128_S128x64_S10000x64_1_0_0_1_n_n none h2 wb (constant (F := Ideal) S10000x64 .f32 0x00000000#32) (ix2 p j))
      + broadcastTo S10000x64 b broadcasts_S1x64_S10000x64 (ix2 p j) = _
  rw [broadcastTo_1b_ab_apply b broadcasts_S1x64_S10000x64 p j]
  refine congrArg₂ (· + ·) (congrArg₂ (· + ·) ?_ ?_) rfl
  · exact matmul_zero_apply dot_S10000x128_S128x64_S10000x64_1_0_0_1_n_n_wf none _ _ p j
  · exact matmul_zero_apply dot_S10000x128_S128x64_S10000x64_1_0_0_1_n_n_wf none _ _ p j

/-! ## The same entries against whole arrays: when a body's blocks are read out of arrays at the places an output
    entry's array index `i` prescribes, the body's entry is the layer function's entry at `i` -/

theorem proj0_at (x0 : Vec Ideal S10000x128 .f32) (x1 : Vec Ideal S128x128 .f32) (H : Mat 100000 128) (W : Mat 128 128)
    (i : (⟨2, ![100000, 128]⟩ : Shape).Idx) (p : Fin 10000) (q : Fin 128)
    (hl : ∀ cc : Fin 128, x0 (ix2 p cc) = H (ix2 (i 0) cc)) (hr : ∀ cc : Fin 128, x1 (ix2 cc q) = W (ix2 cc (i 1))) :
    k0_pay1 x0 x1 (ix2 p q) = mm H W i :=
  (proj0 x0 x1 p q).trans (mm_eq_of H W i _ fun cc => by rw [hl cc, hr cc])

theorem proj3_at (x0 : Vec Ideal S10000x128 .f32) (x1 : Vec Ideal S128x128 .f32) (H : Mat 100000 128) (W : Mat 128 128)
    (i : (⟨2, ![100000, 128]⟩ : Shape).Idx) (p : Fin 10000) (q : Fin 128)
    (hl : ∀ cc : Fin 128, x0 (ix2 p cc) = H (ix2 (i 0) cc)) (hr : ∀ cc : Fin 128, x1 (ix2 cc q) = W (ix2 cc (i 1))) :
    k3_pay1 x0 x1 (ix2 p q) = mm H W i :=
  (proj3 x0 x1 p q).trans (mm_eq_of H W i _ fun cc => by rw [hl cc, hr cc])

theorem edge1_at (x0 : Vec Ideal S8000x128 .f32) (x1 : Vec Ideal S8000x1 .f32) (G : Mat 1600000 128) (S : Mat 1600000 1)
    (i : (⟨2, ![1600000, 128]⟩ : Shape).Idx) (p : Fin 8000) (q : Fin 128)
    (h0 : x0 (ix2 p q) = G i) (h1 : x1 (ix2 p (0 : Fin 1)) = S (ix2 (i 0) (0 : Fin 1))) :
    k1_pay1 x0 x1 (ix2 p q) = edge G S i :=
  (edge1 x0 x1 p q).trans (edge_eq_of G S i _ _ h0 h1)

theorem edge4_at (x0 : Vec Ideal S8000x128 .f32) (x1 : Vec Ideal S8000x1 .f32) (G : Mat 1600000 128) (S : Mat 1600000 1)
    (i : (⟨2, ![1600000, 128]⟩ : Shape).Idx) (p : Fin 8000) (q : Fin 128)
    (h0 : x0 (ix2 p q) = G i) (h1 : x1 (ix2 p (0 : Fin 1)) = S (ix2 (i 0) (0 : Fin 1))) :
    k4_pay1 x0 x1 (ix2 p q) = edge G S i :=
  (edge4 x0 x1 p q).trans (edge_eq_of G S i _ _ h0 h1)

theorem node2_at (d : Vec Ideal S5000x1 .f32) (agg hw : Vec Ideal S5000x128 .f32) (b : Vec Ideal S1x128 .f32)
    (A H : Mat 100000 128) (S : Mat 100000 1) (B : Mat 1 128) (i : (⟨2, ![100000, 128]⟩ : Shape).Idx)
    (p : Fin 5000) (q : Fin 128) (ha : agg (ix2 p q) = A i) (hh : hw (ix2 p q) = H i)
    (hs : d (ix2 p (0 : Fin 1)) = S (ix2 (i 0) (0 : Fin 1))) (hb : b (ix2 (0 : Fin 1) q) = B (ix2 (0 : Fin 1) (i 1))) :
    k2_pay1 d agg hw b (ix2 p q) = node A H S B i :=
  (node2 d agg hw b p q).trans (node_eq_of A H S B i _ _ _ _ ha hh hs hb)

theorem node5_at (d : Vec Ideal S5000x1 .f32) (agg hw : Vec Ideal S5000x128 .f32) (b : Vec Ideal S1x128 .f32)
    (A H : Mat 100000 128) (S : Mat 100000 1) (B : Mat 1 128) (i : (⟨2, ![100000, 128]⟩ : Shape).Idx)
    (p : Fin 5000) (q : Fin 128) (ha : agg (ix2 p q) = A i) (hh : hw (ix2 p q) = H i)
    (hs : d (ix2 p (0 : Fin 1)) = S (ix2 (i 0) (0 : Fin 1))) (hb : b (ix2 (0 : Fin 1) q) = B (ix2 (0 : Fin 1) (i 1))) :
    k5_pay1 d agg hw b (ix2 p q) = node A H S B i :=
  (node5 d agg hw b p q).trans (node_eq_of A H S B i _ _ _ _ ha hh hs hb)

theorem head6_at (h1 h2 : Vec Ideal S10000x128 .f32) (wa wb : Vec Ideal S128x64 .f32) (b : Vec Ideal S1x64 .f32)
    (H1 H2 : Mat 100000 128) (WA WB : Mat 128 64) (B : Mat 1 64) (i : (⟨2, ![100000, 64]⟩ : Shape).Idx)
    (p : Fin 10000) (q : Fin 64)
    (e0 : ∀ cc : Fin 128, h1 (ix2 p cc) = H1 (ix2 (i 0) cc)) (e1 : ∀ cc : Fin 128, h2 (ix2 p cc) = H2 (ix2 (i 0) cc))
    (e2 : ∀ cc : Fin 128, wa (ix2 cc q) = WA (ix2 cc (i 1))) (e3 : ∀ cc : Fin 128, wb (ix2 cc q) = WB (ix2 cc (i 1)))
    (e4 : b (ix2 (0 : Fin 1) q) = B (ix2 (0 : Fin 1) (i 1))) :
    k6_pay1 h1 h2 wa wb b (ix2 p q) = head H1 H2 WA WB B i :=
  (head6 h1 h2 wa wb b p q).trans
    (head_eq_of H1 H2 WA WB B i _ _ _ (fun cc => by rw [e0 cc, e2 cc]) (fun cc => by rw [e1 cc, e3 cc]) e4)

end Cert.KernelIdeal.Pay

end
-- ==== Proof.Region0.lean ====
/-
  Region 0, the first projection, as one whole-array function. The grid has 10 points; point t stages rows
  10000·t … 10000·t + 9999 of the node features [100000, 128] and the whole weight matrix [128, 128], and writes the
  same rows of the output. Entry (p, j) of a block is the sum over c of feature(p, c) · weight(c, j), so the output
  array, whose blocks tile it, ends as the matrix product `mm` of the two input arrays.
-/
import proofs.«100481_j63917703299286_2_alg».proof.Proof.Gen.KernelIdeal.Frame
import proofs.«100481_j63917703299286_2_alg».proof.Proof.LibGcnSpec
import proofs.«100481_j63917703299286_2_alg».proof.Proof.PayIdx
import Idealize.ShloMosaic.Lib.Pipeline.Value
import Idealize.ShloMosaic.Lib.ValueIdx

noncomputable section

open scoped BigOperators

namespace Cert.KernelIdeal.Proj0

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed_eq (c : Dev nD) (t : Fin cfg0.N) :
    (dat0 V c).flushed 2 t = ((cfg0.win 2).blk t).view.read (Elt Ideal) (mm (V c main_arg0) (V c main_v44)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx_facts t
  refine funext fun (j : S10000x128.Idx) => ?_
  obtain ⟨p, q, rfl⟩ : ∃ (p : Fin 10000) (q : Fin 128), j = ix2 p q := ⟨j 0, j 1, eq_ix2 j⟩
  show k0_pay1 (iblk0 V c 0 t) (iblk0 V c 1 t) (ix2 p q)
    = mm (V c main_arg0) (V c main_v44) (((cfg0.win 2).blk t).view.emb (ix2 p q))
  have hl : ∀ cc : Fin 128, ((cfg0.win 0).blk t).view.emb (ix2 p cc)
      = ix2 ((((cfg0.win 2).blk t).view.emb (ix2 p q)) 0) cc := fun cc => by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * cc.val = cc.val; omega
  have hr : ∀ cc : Fin 128, ((cfg0.win 1).blk t).view.emb (ix2 cc q)
      = ix2 cc ((((cfg0.win 2).blk t).view.emb (ix2 p q)) 1) := fun cc => by
    funext a; apply Fin.ext
    match a with
    | ⟨0, _⟩ => show win0_1.index t (0 : Fin 2) * 128 + 1 * cc.val = cc.val; omega
    | ⟨1, _⟩ => show win0_1.index t (1 : Fin 2) * 128 + 1 * q.val = win0_2.index t (1 : Fin 2) * 128 + 1 * q.val; omega
  have hl' : ∀ cc : Fin 128, iblk0 V c 0 t (ix2 p cc)
      = V c main_arg0 (ix2 ((((cfg0.win 2).blk t).view.emb (ix2 p q)) 0) cc) := fun cc => by
    show V c main_arg0 (((cfg0.win 0).blk t).view.emb (ix2 p cc)) = _
    exact congrArg (V c main_arg0) (hl cc)
  have hr' : ∀ cc : Fin 128, iblk0 V c 1 t (ix2 cc q)
      = V c main_v44 (ix2 cc ((((cfg0.win 2).blk t).view.emb (ix2 p q)) 1)) := fun cc => by
    show V c main_v44 (((cfg0.win 1).blk t).view.emb (ix2 cc q)) = _
    exact congrArg (V c main_v44) (hr cc)
  exact Pay.proj0_at (iblk0 V c 0 t) (iblk0 V c 1 t) (V c main_arg0) (V c main_v44)
    (((cfg0.win 2).blk t).view.emb (ix2 p q)) p q hl' hr'

/-- An index of the output array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v46).slice (win0_2.rect t)).set ↔ _
  rw [View.set_slice_whole, Rect.mem_set_unit]
  exact Iff.rfl

/-- Row r of the output lies in the block of point r / 10000: the blocks tile the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have ht : (i 0).val / 10000 < grid0.N := by rw [hN]; omega
  let t : Fin cfg0.N := ⟨(i 0).val / 10000, ht⟩
  have tv : t.val = (i 0).val / 10000 := rfl
  obtain ⟨-, -, -, -, e20, e21⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array after the region: the product of the two input arrays as the region finds them. -/
theorem final (c : Dev nD) : (dat0 V c).arrAt 2 cfg0.N = mm (V c main_arg0) (V c main_v44) :=
  (dat0 V c).arrAt_eq_of_cover 2 _ (fun t _ => flushed_eq V c t) cover

end Cert.KernelIdeal.Proj0

end
-- ==== Proof.Region1.lean ====
/-
  Region 1, the edge product, as one whole-array function. The grid has 200 points; point t stages rows
  8000·t … 8000·t + 7999 of the gathered rows [1600000, 128] and of the one-column matrix [1600000, 1], and writes the
  same rows of the output. Entry (p, q) of a block is the gathered entry times the column's entry of row p, so the
  output array, whose blocks tile it, ends as `edge` of the two input arrays: row r of the first scaled by entry r of
  the second.
-/
import proofs.«100481_j63917703299286_2_alg».proof.Proof.Gen.KernelIdeal.Frame
import proofs.«100481_j63917703299286_2_alg».proof.Proof.LibGcnSpec
import proofs.«100481_j63917703299286_2_alg».proof.Proof.PayIdx
import Idealize.ShloMosaic.Lib.Pipeline.Value
import Idealize.ShloMosaic.Lib.ValueIdx

noncomputable section

namespace Cert.KernelIdeal.Edge1

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block at point t is block row t, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of `edge` of the two arrays as the region finds them. -/
theorem flushed_eq (c : Dev nD) (t : Fin cfg1.N) :
    (dat1 V c).flushed 2 t = ((cfg1.win 2).blk t).view.read (Elt Ideal) (edge (V c main_v53) (V c main_v54)) := by
  show (cfg1.win 2).cut (grid1.coords t) ((dat1 V c).after 2 t) = _
  rw [after1_2]
  unfold out1_2
  rw [View.canon_unit_zero hz]
  simp only [View.ld_unit_zero (S := S8000x128) hz, View.ld_unit_zero (S := S8000x1) hz]
  obtain ⟨e00, e01, e10, e11, e20, e21⟩ := idx_facts t
  refine funext fun (j : S8000x128.Idx) => ?_
  obtain ⟨p, q, rfl⟩ : ∃ (p : Fin 8000) (q : Fin 128), j = ix2 p q := ⟨j 0, j 1, eq_ix2 j⟩
  show k1_pay1 (iblk1 V c 0 t) (iblk1 V c 1 t) (ix2 p q)
    = edge (V c main_v53) (V c main_v54) (((cfg1.win 2).blk t).view.emb (ix2 p q))
  have h0 : ((cfg1.win 0).blk t).view.emb (ix2 p q) = ((cfg1.win 2).blk t).view.emb (ix2 p q) := by
    funext a; apply Fin.ext
    match a with
    | ⟨0, _⟩ => show win1_0.index t (0 : Fin 2) * 8000 + 1 * p.val = win1_2.index t (0 : Fin 2) * 8000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 8000 + 1 * p.val = win1_2.index t (0 : Fin 2) * 8000 + 1 * p.val; omega
    | ⟨1, _⟩ => show win1_1.index t (1 : Fin 2) * 1 + 1 * 0 = 0; omega
  refine (Pay.edge1 _ _ p q).trans ?_
  refine congrArg₂ (fun a b : EReal => a * b) ?_ ?_
  · show V c main_v53 (((cfg1.win 0).blk t).view.emb (ix2 p q)) = V c main_v53 (((cfg1.win 2).blk t).view.emb (ix2 p q))
    exact congrArg (V c main_v53) h0
  · show V c main_v54 (((cfg1.win 1).blk t).view.emb (ix2 p (0 : Fin 1)))
      = V c main_v54 (ix2 ((((cfg1.win 2).blk t).view.emb (ix2 p q)) 0) (0 : Fin 1))
    exact congrArg (V c main_v54) h1

/-- An index of the output array is in point t's block iff each coordinate is in the block's range on its axis. -/
theorem mem_blk (t : Fin cfg1.N) (i : S1600000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v55).slice (win1_2.rect t)).set ↔ _
  rw [View.set_slice_whole, Rect.mem_set_unit]
  exact Iff.rfl

/-- Row r of the output lies in the block of point r / 8000: the blocks tile the array. -/
theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : grid1.N = 200 := N_1
  have ht : (i 0).val / 8000 < grid1.N := by rw [hN]; omega
  let t : Fin cfg1.N := ⟨(i 0).val / 8000, ht⟩
  have tv : t.val = (i 0).val / 8000 := rfl
  obtain ⟨-, -, -, -, e20, e21⟩ := idx_facts t
  refine ⟨t, flush1_2 t, ?_⟩
  rw [mem_blk]
  intro a
  match a with
  | ⟨0, _⟩ =>
    show win1_2.index t (0 : Fin 2) * 8000 ≤ (i 0).val ∧ (i 0).val < win1_2.index t (0 : Fin 2) * 8000 + 8000
    omega
  | ⟨1, _⟩ =>
    show win1_2.index t (1 : Fin 2) * 128 ≤ (i 1).val ∧ (i 1).val < win1_2.index t (1 : Fin 2) * 128 + 128
    omega

/-- The output array after the region: `edge` of the two input arrays as the region finds them. -/
theorem final (c : Dev nD) : (dat1 V c).arrAt 2 cfg1.N = edge (V c main_v53) (V c main_v54) :=
  (dat1 V c).arrAt_eq_of_cover 2 _ (fun t _ => flushed_eq V c t) cover

end Cert.KernelIdeal.Edge1

end
-- ==== Proof.Region2.lean ====
/-
  Region 2, the first layer's node step, as one whole-array function. The grid has 20 points; point t stages rows
  5000·t … 5000·t + 4999 of the aggregate [100000, 128], of the projected features [100000, 128] and of the
  one-column matrix of inverse square-root degrees [100000, 1], and the whole bias row [1, 128], and writes the same
  rows of the output. Entry (p, q) of a block is max(agg(p, q) + (d(p) · d(p)) · hw(p, q) + b(q), 0), so the output
  array, whose blocks tile it, ends as `node` of the four input arrays.
-/
import proofs.«100481_j63917703299286_2_alg».proof.Proof.Gen.KernelIdeal.Frame
import proofs.«100481_j63917703299286_2_alg».proof.Proof.LibGcnSpec
import proofs.«100481_j63917703299286_2_alg».proof.Proof.PayIdx
import Idealize.ShloMosaic.Lib.Pipeline.Value
import Idealize.ShloMosaic.Lib.ValueIdx

noncomputable section

open scoped BigOperators

namespace Cert.KernelIdeal.Node2

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the bias row at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 2000000 in
/-- What point t writes back is block t of `node` of the four arrays as the region finds them. -/
theorem flushed_eq (c : Dev nD) (t : Fin cfg2.N) :
    (dat2 V c).flushed 4 t = ((cfg2.win 4).blk t).view.read (Elt Ideal)
      (node (V c main_v58) (V c main_v46) (V c main_v59) (V c main_v60)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx_facts t
  refine funext fun (j : S5000x128.Idx) => ?_
  obtain ⟨p, q, rfl⟩ : ∃ (p : Fin 5000) (q : Fin 128), j = ix2 p q := ⟨j 0, j 1, eq_ix2 j⟩
  show k2_pay1 (iblk2 V c 2 t) (iblk2 V c 0 t) (iblk2 V c 1 t) (iblk2 V c 3 t) (ix2 p q)
    = node (V c main_v58) (V c main_v46) (V c main_v59) (V c main_v60) (((cfg2.win 4).blk t).view.emb (ix2 p q))
  have h0 : ((cfg2.win 0).blk t).view.emb (ix2 p q) = ((cfg2.win 4).blk t).view.emb (ix2 p q) := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * q.val = win2_4.index t (1 : Fin 2) * 128 + 1 * q.val; omega
  have h1 : ((cfg2.win 1).blk t).view.emb (ix2 p q) = ((cfg2.win 4).blk t).view.emb (ix2 p q) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 128 + 1 * q.val = win2_4.index t (1 : Fin 2) * 128 + 1 * q.val; omega
  have h2 : ((cfg2.win 2).blk t).view.emb (ix2 p (0 : Fin 1))
      = ix2 ((((cfg2.win 4).blk t).view.emb (ix2 p q)) 0) (0 : Fin 1) := by
    funext a; apply Fin.ext
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  have h3 : ((cfg2.win 3).blk t).view.emb (ix2 (0 : Fin 1) q)
      = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  have hA : iblk2 V c 0 t (ix2 p q) = V c main_v58 (((cfg2.win 4).blk t).view.emb (ix2 p q)) := by
    show V c main_v58 (((cfg2.win 0).blk t).view.emb (ix2 p q)) = _
    exact congrArg (V c main_v58) h0
  have hH : iblk2 V c 1 t (ix2 p q) = V c main_v46 (((cfg2.win 4).blk t).view.emb (ix2 p q)) := by
    show V c main_v46 (((cfg2.win 1).blk t).view.emb (ix2 p q)) = _
    exact congrArg (V c main_v46) h1
  have hS : iblk2 V c 2 t (ix2 p (0 : Fin 1))
      = V c main_v59 (ix2 ((((cfg2.win 4).blk t).view.emb (ix2 p q)) 0) (0 : Fin 1)) := by
    show V c main_v59 (((cfg2.win 2).blk t).view.emb (ix2 p (0 : Fin 1))) = _
    exact congrArg (V c main_v59) h2
  have hB : iblk2 V c 3 t (ix2 (0 : Fin 1) q)
      = V c main_v60 (ix2 (0 : Fin 1) ((((cfg2.win 4).blk t).view.emb (ix2 p q)) 1)) := by
    show V c main_v60 (((cfg2.win 3).blk t).view.emb (ix2 (0 : Fin 1) q)) = _
    exact congrArg (V c main_v60) h3
  exact Pay.node2_at (iblk2 V c 2 t) (iblk2 V c 0 t) (iblk2 V c 1 t) (iblk2 V c 3 t)
    (V c main_v58) (V c main_v46) (V c main_v59) (V c main_v60) (((cfg2.win 4).blk t).view.emb (ix2 p q)) p q hA hH hS hB

/-- An index of the output array is in point t's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v61).slice (win2_4.rect t)).set ↔ _
  rw [View.set_slice_whole, Rect.mem_set_unit]
  exact Iff.rfl

/-- Row r of the output lies in the block of point r / 5000: the blocks tile the array. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : grid2.N = 20 := N_2
  have ht : (i 0).val / 5000 < grid2.N := by rw [hN]; omega
  let t : Fin cfg2.N := ⟨(i 0).val / 5000, ht⟩
  have tv : t.val = (i 0).val / 5000 := rfl
  obtain ⟨-, -, -, -, -, -, -, -, e40, e41⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- The output array after the region: `node` of the four input arrays as the region finds them. -/
theorem final (c : Dev nD) :
    (dat2 V c).arrAt 4 cfg2.N = node (V c main_v58) (V c main_v46) (V c main_v59) (V c main_v60) :=
  (dat2 V c).arrAt_eq_of_cover 4 _ (fun t _ => flushed_eq V c t) cover

end Cert.KernelIdeal.Node2

end
-- ==== Proof.Region3.lean ====
/-
  Region 3, the second projection, as one whole-array function. The grid has 10 points; point t stages rows
  10000·t … 10000·t + 9999 of the first layer's output [100000, 128] and the whole weight matrix [128, 128], and writes the
  same rows of the output. Entry (p, j) of a block is the sum over c of feature(p, c) · weight(c, j), so the output
  array, whose blocks tile it, ends as the matrix product `mm` of the two input arrays.
-/
import proofs.«100481_j63917703299286_2_alg».proof.Proof.Gen.KernelIdeal.Frame
import proofs.«100481_j63917703299286_2_alg».proof.Proof.LibGcnSpec
import proofs.«100481_j63917703299286_2_alg».proof.Proof.PayIdx
import Idealize.ShloMosaic.Lib.Pipeline.Value
import Idealize.ShloMosaic.Lib.ValueIdx

noncomputable section

open scoped BigOperators

namespace Cert.KernelIdeal.Proj3

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weight at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the two arrays as the region finds them. -/
theorem flushed_eq (c : Dev nD) (t : Fin cfg3.N) :
    (dat3 V c).flushed 2 t = ((cfg3.win 2).blk t).view.read (Elt Ideal) (mm (V c main_v61) (V c main_v45)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  obtain ⟨e00, e01, e10, e11, e20, e21⟩ := idx_facts t
  refine funext fun (j : S10000x128.Idx) => ?_
  obtain ⟨p, q, rfl⟩ : ∃ (p : Fin 10000) (q : Fin 128), j = ix2 p q := ⟨j 0, j 1, eq_ix2 j⟩
  show k3_pay1 (iblk3 V c 0 t) (iblk3 V c 1 t) (ix2 p q)
    = mm (V c main_v61) (V c main_v45) (((cfg3.win 2).blk t).view.emb (ix2 p q))
  have hl : ∀ cc : Fin 128, ((cfg3.win 0).blk t).view.emb (ix2 p cc)
      = ix2 ((((cfg3.win 2).blk t).view.emb (ix2 p q)) 0) cc := fun cc => by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * cc.val = cc.val; omega
  have hr : ∀ cc : Fin 128, ((cfg3.win 1).blk t).view.emb (ix2 cc q)
      = ix2 cc ((((cfg3.win 2).blk t).view.emb (ix2 p q)) 1) := fun cc => by
    funext a; apply Fin.ext
    match a with
    | ⟨0, _⟩ => show win3_1.index t (0 : Fin 2) * 128 + 1 * cc.val = cc.val; omega
    | ⟨1, _⟩ => show win3_1.index t (1 : Fin 2) * 128 + 1 * q.val = win3_2.index t (1 : Fin 2) * 128 + 1 * q.val; omega
  have hl' : ∀ cc : Fin 128, iblk3 V c 0 t (ix2 p cc)
      = V c main_v61 (ix2 ((((cfg3.win 2).blk t).view.emb (ix2 p q)) 0) cc) := fun cc => by
    show V c main_v61 (((cfg3.win 0).blk t).view.emb (ix2 p cc)) = _
    exact congrArg (V c main_v61) (hl cc)
  have hr' : ∀ cc : Fin 128, iblk3 V c 1 t (ix2 cc q)
      = V c main_v45 (ix2 cc ((((cfg3.win 2).blk t).view.emb (ix2 p q)) 1)) := fun cc => by
    show V c main_v45 (((cfg3.win 1).blk t).view.emb (ix2 cc q)) = _
    exact congrArg (V c main_v45) (hr cc)
  exact Pay.proj3_at (iblk3 V c 0 t) (iblk3 V c 1 t) (V c main_v61) (V c main_v45)
    (((cfg3.win 2).blk t).view.emb (ix2 p q)) p q hl' hr'

/-- An index of the output array is in point t's block iff each coordinate is in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v62).slice (win3_2.rect t)).set ↔ _
  rw [View.set_slice_whole, Rect.mem_set_unit]
  exact Iff.rfl

/-- Row r of the output lies in the block of point r / 10000: the blocks tile the array. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  have ht : (i 0).val / 10000 < grid3.N := by rw [hN]; omega
  let t : Fin cfg3.N := ⟨(i 0).val / 10000, ht⟩
  have tv : t.val = (i 0).val / 10000 := rfl
  obtain ⟨-, -, -, -, e20, e21⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- The output array after the region: the product of the two input arrays as the region finds them. -/
theorem final (c : Dev nD) : (dat3 V c).arrAt 2 cfg3.N = mm (V c main_v61) (V c main_v45) :=
  (dat3 V c).arrAt_eq_of_cover 2 _ (fun t _ => flushed_eq V c t) cover

end Cert.KernelIdeal.Proj3

end
-- ==== Proof.Region4.lean ====
/-
  Region 4, the second layer's edge product, as one whole-array function. The grid has 200 points; point t stages rows
  8000·t … 8000·t + 7999 of the gathered rows [1600000, 128] and of the one-column matrix [1600000, 1], and writes the
  same rows of the output. Entry (p, q) of a block is the gathered entry times the column's entry of row p, so the
  output array, whose blocks tile it, ends as `edge` of the two input arrays: row r of the first scaled by entry r of
  the second.
-/
import proofs.«100481_j63917703299286_2_alg».proof.Proof.Gen.KernelIdeal.Frame
import proofs.«100481_j63917703299286_2_alg».proof.Proof.LibGcnSpec
import proofs.«100481_j63917703299286_2_alg».proof.Proof.PayIdx
import Idealize.ShloMosaic.Lib.Pipeline.Value
import Idealize.ShloMosaic.Lib.ValueIdx

noncomputable section

namespace Cert.KernelIdeal.Edge4

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block at point t is block row t, block column 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of `edge` of the two arrays as the region finds them. -/
theorem flushed_eq (c : Dev nD) (t : Fin cfg4.N) :
    (dat4 V c).flushed 2 t = ((cfg4.win 2).blk t).view.read (Elt Ideal) (edge (V c main_v69) (V c main_v70)) := by
  show (cfg4.win 2).cut (grid4.coords t) ((dat4 V c).after 2 t) = _
  rw [after4_2]
  unfold out4_2
  rw [View.canon_unit_zero hz]
  simp only [View.ld_unit_zero (S := S8000x128) hz, View.ld_unit_zero (S := S8000x1) hz]
  obtain ⟨e00, e01, e10, e11, e20, e21⟩ := idx_facts t
  refine funext fun (j : S8000x128.Idx) => ?_
  obtain ⟨p, q, rfl⟩ : ∃ (p : Fin 8000) (q : Fin 128), j = ix2 p q := ⟨j 0, j 1, eq_ix2 j⟩
  show k4_pay1 (iblk4 V c 0 t) (iblk4 V c 1 t) (ix2 p q)
    = edge (V c main_v69) (V c main_v70) (((cfg4.win 2).blk t).view.emb (ix2 p q))
  have h0 : ((cfg4.win 0).blk t).view.emb (ix2 p q) = ((cfg4.win 2).blk t).view.emb (ix2 p q) := by
    funext a; apply Fin.ext
    match a with
    | ⟨0, _⟩ => show win4_0.index t (0 : Fin 2) * 8000 + 1 * p.val = win4_2.index t (0 : Fin 2) * 8000 + 1 * p.val; omega
    | ⟨1, _⟩ => show win4_0.index t (1 : Fin 2) * 128 + 1 * q.val = win4_2.index t (1 : Fin 2) * 128 + 1 * q.val; omega
  have h1 : ((cfg4.win 1).blk t).view.emb (ix2 p (0 : Fin 1))
      = ix2 ((((cfg4.win 2).blk t).view.emb (ix2 p q)) 0) (0 : Fin 1) := by
    funext a; apply Fin.ext
    match a with
    | ⟨0, _⟩ => show win4_1.index t (0 : Fin 2) * 8000 + 1 * p.val = win4_2.index t (0 : Fin 2) * 8000 + 1 * p.val; omega
    | ⟨1, _⟩ => show win4_1.index t (1 : Fin 2) * 1 + 1 * 0 = 0; omega
  refine (Pay.edge4 _ _ p q).trans ?_
  refine congrArg₂ (fun a b : EReal => a * b) ?_ ?_
  · show V c main_v69 (((cfg4.win 0).blk t).view.emb (ix2 p q)) = V c main_v69 (((cfg4.win 2).blk t).view.emb (ix2 p q))
    exact congrArg (V c main_v69) h0
  · show V c main_v70 (((cfg4.win 1).blk t).view.emb (ix2 p (0 : Fin 1)))
      = V c main_v70 (ix2 ((((cfg4.win 2).blk t).view.emb (ix2 p q)) 0) (0 : Fin 1))
    exact congrArg (V c main_v70) h1

/-- An index of the output array is in point t's block iff each coordinate is in the block's range on its axis. -/
theorem mem_blk (t : Fin cfg4.N) (i : S1600000x128.Idx) :
    i ∈ ((cfg4.win 2).blk t).view.set ↔ ∀ a : Fin 2, win4_2.index t a * S8000x128.size a ≤ (i a).val
      ∧ (i a).val < win4_2.index t a * S8000x128.size a + S8000x128.size a := by
  show i ∈ ((View.whole main_v71).slice (win4_2.rect t)).set ↔ _
  rw [View.set_slice_whole, Rect.mem_set_unit]
  exact Iff.rfl

/-- Row r of the output lies in the block of point r / 8000: the blocks tile the array. -/
theorem cover (i : S1600000x128.Idx) :
    ∃ t : Fin cfg4.N, (cfg4.win 2).flush t = true ∧ i ∈ ((cfg4.win 2).blk t).view.set := by
  have hi0 : (i 0).val < 1600000 := (i 0).isLt
  have hi1 : (i 1).val < 128 := (i 1).isLt
  have hN : grid4.N = 200 := N_4
  have ht : (i 0).val / 8000 < grid4.N := by rw [hN]; omega
  let t : Fin cfg4.N := ⟨(i 0).val / 8000, ht⟩
  have tv : t.val = (i 0).val / 8000 := rfl
  obtain ⟨-, -, -, -, e20, e21⟩ := idx_facts t
  refine ⟨t, flush4_2 t, ?_⟩
  rw [mem_blk]
  intro a
  match a with
  | ⟨0, _⟩ =>
    show win4_2.index t (0 : Fin 2) * 8000 ≤ (i 0).val ∧ (i 0).val < win4_2.index t (0 : Fin 2) * 8000 + 8000
    omega
  | ⟨1, _⟩ =>
    show win4_2.index t (1 : Fin 2) * 128 ≤ (i 1).val ∧ (i 1).val < win4_2.index t (1 : Fin 2) * 128 + 128
    omega

/-- The output array after the region: `edge` of the two input arrays as the region finds them. -/
theorem final (c : Dev nD) : (dat4 V c).arrAt 2 cfg4.N = edge (V c main_v69) (V c main_v70) :=
  (dat4 V c).arrAt_eq_of_cover 2 _ (fun t _ => flushed_eq V c t) cover

end Cert.KernelIdeal.Edge4

end
-- ==== Proof.Region5.lean ====
/-
  Region 5, the second layer's node step, as one whole-array function. The grid has 20 points; point t stages rows
  5000·t … 5000·t + 4999 of the aggregate [100000, 128], of the projected features [100000, 128] and of the
  one-column matrix of inverse square-root degrees [100000, 1], and the whole bias row [1, 128], and writes the same
  rows of the output. Entry (p, q) of a block is max(agg(p, q) + (d(p) · d(p)) · hw(p, q) + b(q), 0), so the output
  array, whose blocks tile it, ends as `node` of the four input arrays.
-/
import proofs.«100481_j63917703299286_2_alg».proof.Proof.Gen.KernelIdeal.Frame
import proofs.«100481_j63917703299286_2_alg».proof.Proof.LibGcnSpec
import proofs.«100481_j63917703299286_2_alg».proof.Proof.PayIdx
import Idealize.ShloMosaic.Lib.Pipeline.Value
import Idealize.ShloMosaic.Lib.ValueIdx

noncomputable section

open scoped BigOperators

namespace Cert.KernelIdeal.Node5

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the bias row at block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 2000000 in
/-- What point t writes back is block t of `node` of the four arrays as the region finds them. -/
theorem flushed_eq (c : Dev nD) (t : Fin cfg5.N) :
    (dat5 V c).flushed 4 t = ((cfg5.win 4).blk t).view.read (Elt Ideal)
      (node (V c main_v74) (V c main_v62) (V c main_v75) (V c main_v76)) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx_facts t
  refine funext fun (j : S5000x128.Idx) => ?_
  obtain ⟨p, q, rfl⟩ : ∃ (p : Fin 5000) (q : Fin 128), j = ix2 p q := ⟨j 0, j 1, eq_ix2 j⟩
  show k5_pay1 (iblk5 V c 2 t) (iblk5 V c 0 t) (iblk5 V c 1 t) (iblk5 V c 3 t) (ix2 p q)
    = node (V c main_v74) (V c main_v62) (V c main_v75) (V c main_v76) (((cfg5.win 4).blk t).view.emb (ix2 p q))
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * q.val = win5_4.index t (1 : Fin 2) * 128 + 1 * q.val; omega
  have h2 : ((cfg5.win 2).blk t).view.emb (ix2 p (0 : Fin 1))
      = ix2 ((((cfg5.win 4).blk t).view.emb (ix2 p q)) 0) (0 : Fin 1) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  have h3 : ((cfg5.win 3).blk t).view.emb (ix2 (0 : Fin 1) q)
      = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega
  have hA : iblk5 V c 0 t (ix2 p q) = V c main_v74 (((cfg5.win 4).blk t).view.emb (ix2 p q)) := by
    show V c main_v74 (((cfg5.win 0).blk t).view.emb (ix2 p q)) = _
    exact congrArg (V c main_v74) h0
  have hH : iblk5 V c 1 t (ix2 p q) = V c main_v62 (((cfg5.win 4).blk t).view.emb (ix2 p q)) := by
    show V c main_v62 (((cfg5.win 1).blk t).view.emb (ix2 p q)) = _
    exact congrArg (V c main_v62) h1
  have hS : iblk5 V c 2 t (ix2 p (0 : Fin 1))
      = V c main_v75 (ix2 ((((cfg5.win 4).blk t).view.emb (ix2 p q)) 0) (0 : Fin 1)) := by
    show V c main_v75 (((cfg5.win 2).blk t).view.emb (ix2 p (0 : Fin 1))) = _
    exact congrArg (V c main_v75) h2
  have hB : iblk5 V c 3 t (ix2 (0 : Fin 1) q)
      = V c main_v76 (ix2 (0 : Fin 1) ((((cfg5.win 4).blk t).view.emb (ix2 p q)) 1)) := by
    show V c main_v76 (((cfg5.win 3).blk t).view.emb (ix2 (0 : Fin 1) q)) = _
    exact congrArg (V c main_v76) h3
  exact Pay.node5_at (iblk5 V c 2 t) (iblk5 V c 0 t) (iblk5 V c 1 t) (iblk5 V c 3 t)
    (V c main_v74) (V c main_v62) (V c main_v75) (V c main_v76) (((cfg5.win 4).blk t).view.emb (ix2 p q)) p q hA hH hS hB

/-- An index of the output array is in point t's block iff each coordinate is in the block's range on its axis. -/
theorem mem_blk (t : Fin cfg5.N) (i : S100000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v77).slice (win5_4.rect t)).set ↔ _
  rw [View.set_slice_whole, Rect.mem_set_unit]
  exact Iff.rfl

/-- Row r of the output lies in the block of point r / 5000: the blocks tile the array. -/
theorem cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : grid5.N = 20 := N_5
  have ht : (i 0).val / 5000 < grid5.N := by rw [hN]; omega
  let t : Fin cfg5.N := ⟨(i 0).val / 5000, ht⟩
  have tv : t.val = (i 0).val / 5000 := rfl
  obtain ⟨-, -, -, -, -, -, -, -, e40, e41⟩ := idx_facts t
  refine ⟨t, flush5_4 t, ?_⟩
  rw [mem_blk]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- The output array after the region: `node` of the four input arrays as the region finds them. -/
theorem final (c : Dev nD) :
    (dat5 V c).arrAt 4 cfg5.N = node (V c main_v74) (V c main_v62) (V c main_v75) (V c main_v76) :=
  (dat5 V c).arrAt_eq_of_cover 4 _ (fun t _ => flushed_eq V c t) cover

end Cert.KernelIdeal.Node5

end
-- ==== Proof.Region6.lean ====
/-
  Region 6, the head, as one whole-array function. The grid has 10 points; point t stages rows
  10000·t … 10000·t + 9999 of the two layers' outputs [100000, 128], the two whole weight halves [128, 64] and the
  whole bias row [1, 64], and writes the same rows of the result [100000, 64]. Entry (p, j) of a block is
  (sum over c of h1(p, c) · wa(c, j)) + (sum over c of h2(p, c) · wb(c, j)) + b(j), so the result array, whose blocks
  tile it, ends as `head` of the five input arrays.
-/
import proofs.«100481_j63917703299286_2_alg».proof.Proof.Gen.KernelIdeal.Frame
import proofs.«100481_j63917703299286_2_alg».proof.Proof.LibGcnSpec
import proofs.«100481_j63917703299286_2_alg».proof.Proof.PayIdx
import Idealize.ShloMosaic.Lib.Pipeline.Value
import Idealize.ShloMosaic.Lib.ValueIdx

noncomputable section

open scoped BigOperators

namespace Cert.KernelIdeal.Head6

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the rest at block (0, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

set_option maxHeartbeats 2000000 in
/-- What point t writes back is block t of `head` of the five arrays as the region finds them. -/
theorem flushed_eq (c : Dev nD) (t : Fin cfg6.N) :
    (dat6 V c).flushed 5 t = ((cfg6.win 5).blk t).view.read (Elt Ideal)
      (head (V c main_v61) (V c main_v77) (V c main_v79) (V c main_v81) (V c main_v82)) := by
  show (cfg6.win 5).cut (grid6.coords t) ((dat6 V c).after 5 t) = _
  rw [after6_5]
  unfold out6_5
  rw [View.canon_unit_zero hz]
  simp only [View.ld_unit_zero (S := S10000x128) hz, View.ld_unit_zero (S := S128x64) hz, View.ld_unit_zero (S := S1x64) hz]
  obtain ⟨e00, e01, e10, e11, e20, e21, e30, e31, e40, e41, e50, e51⟩ := idx_facts t
  refine funext fun (j : S10000x64.Idx) => ?_
  obtain ⟨p, q, rfl⟩ : ∃ (p : Fin 10000) (q : Fin 64), j = ix2 p q := ⟨j 0, j 1, eq_ix2 j⟩
  show k6_pay1 (iblk6 V c 0 t) (iblk6 V c 1 t) (iblk6 V c 2 t) (iblk6 V c 3 t) (iblk6 V c 4 t) (ix2 p q)
    = head (V c main_v61) (V c main_v77) (V c main_v79) (V c main_v81) (V c main_v82)
        (((cfg6.win 5).blk t).view.emb (ix2 p q))
  have hl0 : ∀ cc : Fin 128, ((cfg6.win 0).blk t).view.emb (ix2 p cc)
      = ix2 ((((cfg6.win 5).blk t).view.emb (ix2 p q)) 0) cc := fun cc => by
    funext a; apply Fin.ext
    match a with
    | ⟨0, _⟩ => show win6_0.index t (0 : Fin 2) * 10000 + 1 * p.val = win6_5.index t (0 : Fin 2) * 10000 + 1 * p.val; omega
    | ⟨1, _⟩ => show win6_0.index t (1 : Fin 2) * 128 + 1 * cc.val = cc.val; omega
  have hl1 : ∀ cc : Fin 128, ((cfg6.win 1).blk t).view.emb (ix2 p cc)
      = ix2 ((((cfg6.win 5).blk t).view.emb (ix2 p q)) 0) cc := fun cc => by
    funext a; apply Fin.ext
    match a with
    | ⟨0, _⟩ => show win6_1.index t (0 : Fin 2) * 10000 + 1 * p.val = win6_5.index t (0 : Fin 2) * 10000 + 1 * p.val; omega
    | ⟨1, _⟩ => show win6_1.index t (1 : Fin 2) * 128 + 1 * cc.val = cc.val; omega
  have hr2 : ∀ cc : Fin 128, ((cfg6.win 2).blk t).view.emb (ix2 cc q)
      = ix2 cc ((((cfg6.win 5).blk t).view.emb (ix2 p q)) 1) := fun cc => by
    funext a; apply Fin.ext
    match a with
    | ⟨0, _⟩ => show win6_2.index t (0 : Fin 2) * 128 + 1 * cc.val = cc.val; omega
    | ⟨1, _⟩ => show win6_2.index t (1 : Fin 2) * 64 + 1 * q.val = win6_5.index t (1 : Fin 2) * 64 + 1 * q.val; omega
  have hr3 : ∀ cc : Fin 128, ((cfg6.win 3).blk t).view.emb (ix2 cc q)
      = ix2 cc ((((cfg6.win 5).blk t).view.emb (ix2 p q)) 1) := fun cc => by
    funext a; apply Fin.ext
    match a with
    | ⟨0, _⟩ => show win6_3.index t (0 : Fin 2) * 128 + 1 * cc.val = cc.val; omega
    | ⟨1, _⟩ => show win6_3.index t (1 : Fin 2) * 64 + 1 * q.val = win6_5.index t (1 : Fin 2) * 64 + 1 * q.val; omega
  have h4 : ((cfg6.win 4).blk t).view.emb (ix2 (0 : Fin 1) q)
      = ix2 (0 : Fin 1) ((((cfg6.win 5).blk t).view.emb (ix2 p q)) 1) := by
    funext a; apply Fin.ext
    match a with
    | ⟨0, _⟩ => show win6_4.index t (0 : Fin 2) * 1 + 1 * 0 = 0; omega
    | ⟨1, _⟩ => show win6_4.index t (1 : Fin 2) * 64 + 1 * q.val = win6_5.index t (1 : Fin 2) * 64 + 1 * q.val; omega
  have e0 : ∀ cc : Fin 128, iblk6 V c 0 t (ix2 p cc)
      = V c main_v61 (ix2 ((((cfg6.win 5).blk t).view.emb (ix2 p q)) 0) cc) := fun cc => by
    show V c main_v61 (((cfg6.win 0).blk t).view.emb (ix2 p cc)) = _
    exact congrArg (V c main_v61) (hl0 cc)
  have e1 : ∀ cc : Fin 128, iblk6 V c 1 t (ix2 p cc)
      = V c main_v77 (ix2 ((((cfg6.win 5).blk t).view.emb (ix2 p q)) 0) cc) := fun cc => by
    show V c main_v77 (((cfg6.win 1).blk t).view.emb (ix2 p cc)) = _
    exact congrArg (V c main_v77) (hl1 cc)
  have e2 : ∀ cc : Fin 128, iblk6 V c 2 t (ix2 cc q)
      = V c main_v79 (ix2 cc ((((cfg6.win 5).blk t).view.emb (ix2 p q)) 1)) := fun cc => by
    show V c main_v79 (((cfg6.win 2).blk t).view.emb (ix2 cc q)) = _
    exact congrArg (V c main_v79) (hr2 cc)
  have e3 : ∀ cc : Fin 128, iblk6 V c 3 t (ix2 cc q)
      = V c main_v81 (ix2 cc ((((cfg6.win 5).blk t).view.emb (ix2 p q)) 1)) := fun cc => by
    show V c main_v81 (((cfg6.win 3).blk t).view.emb (ix2 cc q)) = _
    exact congrArg (V c main_v81) (hr3 cc)
  have e4 : iblk6 V c 4 t (ix2 (0 : Fin 1) q)
      = V c main_v82 (ix2 (0 : Fin 1) ((((cfg6.win 5).blk t).view.emb (ix2 p q)) 1)) := by
    show V c main_v82 (((cfg6.win 4).blk t).view.emb (ix2 (0 : Fin 1) q)) = _
    exact congrArg (V c main_v82) h4
  exact Pay.head6_at (iblk6 V c 0 t) (iblk6 V c 1 t) (iblk6 V c 2 t) (iblk6 V c 3 t) (iblk6 V c 4 t)
    (V c main_v61) (V c main_v77) (V c main_v79) (V c main_v81) (V c main_v82)
    (((cfg6.win 5).blk t).view.emb (ix2 p q)) p q e0 e1 e2 e3 e4

/-- An index of the result array is in point t's block iff each coordinate is in the block's range on its axis. -/
theorem mem_blk (t : Fin cfg6.N) (i : S100000x64.Idx) :
    i ∈ ((cfg6.win 5).blk t).view.set ↔ ∀ a : Fin 2, win6_5.index t a * S10000x64.size a ≤ (i a).val
      ∧ (i a).val < win6_5.index t a * S10000x64.size a + S10000x64.size a := by
  show i ∈ ((View.whole main_v83).slice (win6_5.rect t)).set ↔ _
  rw [View.set_slice_whole, Rect.mem_set_unit]
  exact Iff.rfl

/-- Row r of the result lies in the block of point r / 10000: the blocks tile the array. -/
theorem cover (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : grid6.N = 10 := N_6
  have ht : (i 0).val / 10000 < grid6.N := by rw [hN]; omega
  let t : Fin cfg6.N := ⟨(i 0).val / 10000, ht⟩
  have tv : t.val = (i 0).val / 10000 := rfl
  obtain ⟨-, -, -, -, -, -, -, -, -, -, e50, e51⟩ := idx_facts t
  refine ⟨t, flush6_5 t, ?_⟩
  rw [mem_blk]
  intro a
  match a with
  | ⟨0, _⟩ =>
    show win6_5.index t (0 : Fin 2) * 10000 ≤ (i 0).val ∧ (i 0).val < win6_5.index t (0 : Fin 2) * 10000 + 10000
    omega
  | ⟨1, _⟩ =>
    show win6_5.index t (1 : Fin 2) * 64 ≤ (i 1).val ∧ (i 1).val < win6_5.index t (1 : Fin 2) * 64 + 64
    omega

/-- The result array after the region: `head` of the five input arrays as the region finds them. -/
theorem final (c : Dev nD) : (dat6 V c).arrAt 5 cfg6.N
    = head (V c main_v61) (V c main_v77) (V c main_v79) (V c main_v81) (V c main_v82) :=
  (dat6 V c).arrAt_eq_of_cover 5 _ (fun t _ => flushed_eq V c t) cover

end Cert.KernelIdeal.Head6

end
-- ==== Proof.Fold.lean ====
/-
  The contents of the idealized kernel program's buffers at the boundaries between its host stretches and its
  regions, read back to the contents at the first region's entry. A host stretch leaves every buffer it does not write
  as it was and writes each of its results as its operation of its operands; a region leaves every buffer that is not
  one of its arrays as it was, leaves its input arrays as it found them, and writes its output array as the region's
  whole-array function of its input arrays. Walking the seventeen segments in order, the result buffer ends holding
  the network function `out` of the entry contents: two layers (project, gather rows, scale per edge, scatter-add,
  combine and rectify) and the head, with the gather and the scatter-add left as the host's own operations.
-/
import proofs.«100481_j63917703299286_2_alg».proof.Proof.Gen.KernelIdeal.Frame
import proofs.«100481_j63917703299286_2_alg».proof.Proof.LibGcnSpec
import proofs.«100481_j63917703299286_2_alg».proof.Proof.Region0
import proofs.«100481_j63917703299286_2_alg».proof.Proof.Region1
import proofs.«100481_j63917703299286_2_alg».proof.Proof.Region2
import proofs.«100481_j63917703299286_2_alg».proof.Proof.Region3
import proofs.«100481_j63917703299286_2_alg».proof.Proof.Region4
import proofs.«100481_j63917703299286_2_alg».proof.Proof.Region5
import proofs.«100481_j63917703299286_2_alg».proof.Proof.Region6
import Idealize.ShloMosaic.Lib.StableHlo.Run

noncomputable section

namespace Cert.KernelIdeal.Fold

open Cert.KernelIdeal Cert.KernelIdeal.Gen Idealize.ShloMosaic Idealize.ShloMosaic.TcCoe Idealize.ShloMosaic.StableHlo
open Idealize.SL.Sem Cert.Gcn
open Idealize.ShloMosaic.Pipeline (Dat Cfg Window)

/-! ## What each host stretch after the first region writes, and what it keeps -/

/-- The references host stretch 1 writes. -/
abbrev hostOps1_W : List (Ref sig .tc) := [main_c_13, main_v47, main_v48, main_c_14, main_v49, main_v50, main_v51, main_v52, main_v53, main_v54]
theorem hostOps1_writes : (hostOps1 : List (HloOp τ sig (Elt Ideal))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference host stretch 1 does not write keeps its contents. -/
theorem keep1 (Wx : Valuation τ sig (Elt Ideal)) (r : Ref sig .tc) (h : r ∉ hostOps1_W := by decide) :
    StableHlo.after hostOps1 Wx (Proc.devRef .tc r) = Wx (Proc.devRef .tc r) :=
  StableHlo.after_of_writes_sub hostOps1 Wx hostOps1_writes h

/-- The references host stretch 2 writes. -/
abbrev hostOps2_W : List (Ref sig .tc) := [main_cst_15, main_v56, main_v57, main_v58, main_v59, main_v60]
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference host stretch 2 does not write keeps its contents. -/
theorem keep2 (Wx : Valuation τ sig (Elt Ideal)) (r : Ref sig .tc) (h : r ∉ hostOps2_W := by decide) :
    StableHlo.after hostOps2 Wx (Proc.devRef .tc r) = Wx (Proc.devRef .tc r) :=
  StableHlo.after_of_writes_sub hostOps2 Wx hostOps2_writes h

/-- The references host stretch 4 writes. -/
abbrev hostOps4_W : List (Ref sig .tc) := [main_c_16, main_v63, main_v64, main_c_17, main_v65, main_v66, main_v67, main_v68, main_v69, main_v70]
theorem hostOps4_writes : (hostOps4 : List (HloOp τ sig (Elt Ideal))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference host stretch 4 does not write keeps its contents. -/
theorem keep4 (Wx : Valuation τ sig (Elt Ideal)) (r : Ref sig .tc) (h : r ∉ hostOps4_W := by decide) :
    StableHlo.after hostOps4 Wx (Proc.devRef .tc r) = Wx (Proc.devRef .tc r) :=
  StableHlo.after_of_writes_sub hostOps4 Wx hostOps4_writes h

/-- The references host stretch 5 writes. -/
abbrev hostOps5_W : List (Ref sig .tc) := [main_cst_18, main_v72, main_v73, main_v74, main_v75, main_v76]
theorem hostOps5_writes : (hostOps5 : List (HloOp τ sig (Elt Ideal))).Forall fun op => op.writes ⊆ (hostOps5_W.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference host stretch 5 does not write keeps its contents. -/
theorem keep5 (Wx : Valuation τ sig (Elt Ideal)) (r : Ref sig .tc) (h : r ∉ hostOps5_W := by decide) :
    StableHlo.after hostOps5 Wx (Proc.devRef .tc r) = Wx (Proc.devRef .tc r) :=
  StableHlo.after_of_writes_sub hostOps5 Wx hostOps5_writes h

/-- The references host stretch 6 writes. -/
abbrev hostOps6_W : List (Ref sig .tc) := [main_v78, main_v79, main_v80, main_v81, main_v82]
theorem hostOps6_writes : (hostOps6 : List (HloOp τ sig (Elt Ideal))).Forall fun op => op.writes ⊆ (hostOps6_W.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference host stretch 6 does not write keeps its contents. -/
theorem keep6 (Wx : Valuation τ sig (Elt Ideal)) (r : Ref sig .tc) (h : r ∉ hostOps6_W := by decide) :
    StableHlo.after hostOps6 Wx (Proc.devRef .tc r) = Wx (Proc.devRef .tc r) :=
  StableHlo.after_of_writes_sub hostOps6 Wx hostOps6_writes h

/-! ## The host's own operations between the regions, as functions -/

/-- Row numbers with the negative ones wrapped by the extent, as a column of indices. -/
def wrapIdx (r : (⟨S1600000, .i32⟩ : BufTy).Contents (Elt Ideal)) : (⟨S1600000x1, .i32⟩ : BufTy).Contents (Elt Ideal) :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- The rows of a node matrix at the wrapped row numbers `r`: one row per edge. -/
def gatherRows (r : (⟨S1600000, .i32⟩ : BufTy).Contents (Elt Ideal)) (hw : Mat 100000 128) : Mat 1600000 128 :=
  Host.gather gather_S100000x128_S1600000x1_S1600000x128_1_0_n_n_0_1_1128 hw (wrapIdx r)

/-- The edge rows added into the zero matrix at the node numbers `cl`. -/
def scatterRows (cl : (⟨S1600000, .i32⟩ : BufTy).Contents (Elt Ideal)) (u : Mat 1600000 128) : Mat 100000 128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 cl) u

/-- The transposed left half of the head's weight matrix, as the host cuts and transposes it. -/
def headLeft (w : (⟨S64x256, .f32⟩ : BufTy).Contents (Elt Ideal)) : Mat 128 64 :=
  transpose S128x64 [1, 0] (extractStridedSlice S64x128 ![0, 0] w slices_S64x256_S64x128_0_0) transposes_S64x128_S128x64_1_0

/-- The transposed right half. -/
def headRight (w : (⟨S64x256, .f32⟩ : BufTy).Contents (Elt Ideal)) : Mat 128 64 :=
  transpose S128x64 [1, 0] (extractStridedSlice S64x128 ![0, 128] w slices_S64x256_S64x128_0_128) transposes_S64x128_S128x64_1_0

/-! ## What each host stretch writes, over any contents -/

section Stretches
variable (Wx : Valuation τ sig (Elt Ideal))

theorem s1_v53 : StableHlo.after hostOps1 Wx (Proc.devRef .tc main_v53)
    = gatherRows (Wx (Proc.devRef .tc main_v1)) (Wx (Proc.devRef .tc main_v46)) := by
  after_results_simp <;> rfl
theorem s1_v54 : StableHlo.after hostOps1 Wx (Proc.devRef .tc main_v54)
    = shapeCast S1600000x1 (Wx (Proc.devRef .tc main_v43)) shapeCasts_S1600000_S1600000x1 := by
  after_results_simp <;> rfl
theorem s2_v58 : StableHlo.after hostOps2 Wx (Proc.devRef .tc main_v58)
    = scatterRows (Wx (Proc.devRef .tc main_v3)) (Wx (Proc.devRef .tc main_v55)) := by
  after_results_simp <;> rfl
theorem s2_v59 : StableHlo.after hostOps2 Wx (Proc.devRef .tc main_v59)
    = shapeCast S100000x1 (Wx (Proc.devRef .tc main_v27)) shapeCasts_S100000_S100000x1 := by
  after_results_simp <;> rfl
theorem s2_v60 : StableHlo.after hostOps2 Wx (Proc.devRef .tc main_v60)
    = shapeCast S1x128 (Wx (Proc.devRef .tc main_arg4)) shapeCasts_S128_S1x128 := by
  after_results_simp <;> rfl
theorem s4_v69 : StableHlo.after hostOps4 Wx (Proc.devRef .tc main_v69)
    = gatherRows (Wx (Proc.devRef .tc main_v1)) (Wx (Proc.devRef .tc main_v62)) := by
  after_results_simp <;> rfl
theorem s4_v70 : StableHlo.after hostOps4 Wx (Proc.devRef .tc main_v70)
    = shapeCast S1600000x1 (Wx (Proc.devRef .tc main_v43)) shapeCasts_S1600000_S1600000x1 := by
  after_results_simp <;> rfl
theorem s5_v74 : StableHlo.after hostOps5 Wx (Proc.devRef .tc main_v74)
    = scatterRows (Wx (Proc.devRef .tc main_v3)) (Wx (Proc.devRef .tc main_v71)) := by
  after_results_simp <;> rfl
theorem s5_v75 : StableHlo.after hostOps5 Wx (Proc.devRef .tc main_v75)
    = shapeCast S100000x1 (Wx (Proc.devRef .tc main_v27)) shapeCasts_S100000_S100000x1 := by
  after_results_simp <;> rfl
theorem s5_v76 : StableHlo.after hostOps5 Wx (Proc.devRef .tc main_v76)
    = shapeCast S1x128 (Wx (Proc.devRef .tc main_arg6)) shapeCasts_S128_S1x128 := by
  after_results_simp <;> rfl
theorem s6_v79 : StableHlo.after hostOps6 Wx (Proc.devRef .tc main_v79) = headLeft (Wx (Proc.devRef .tc main_arg7)) := by
  after_results_simp <;> rfl
theorem s6_v81 : StableHlo.after hostOps6 Wx (Proc.devRef .tc main_v81) = headRight (Wx (Proc.devRef .tc main_arg7)) := by
  after_results_simp <;> rfl
theorem s6_v82 : StableHlo.after hostOps6 Wx (Proc.devRef .tc main_v82)
    = shapeCast S1x64 (Wx (Proc.devRef .tc main_arg8)) shapeCasts_S64_S1x64 := by
  after_results_simp <;> rfl

end Stretches

/-! ## The boundaries, read back to the first region's entry -/

section Levels
variable (m : (ℓ : Loc nD τ sig) → Buf (Elt Ideal) ℓ) (ρ : Dev nD → PrngReg) (c : Dev nD)

/-! ### A buffer nothing writes after the first region's entry keeps its entry contents -/

theorem down6 (b : Ref sig .tc) (a0 : ∀ w, Pipeline.arrRef spec0 w ≠ b := by decide) :
    W6 m ρ c (Proc.devRef .tc b) = W5 m ρ c (Proc.devRef .tc b) := W6_of_ne m ρ c b a0
theorem down7 (b : Ref sig .tc) (a0 : ∀ w, Pipeline.arrRef spec0 w ≠ b := by decide) (h1 : b ∉ hostOps1_W := by decide) :
    W7 m ρ c (Proc.devRef .tc b) = W5 m ρ c (Proc.devRef .tc b) := (keep1 (W6 m ρ c) b h1).trans (down6 m ρ c b a0)
theorem down8 (b : Ref sig .tc) (a0 : ∀ w, Pipeline.arrRef spec0 w ≠ b := by decide) (h1 : b ∉ hostOps1_W := by decide)
    (a1 : ∀ w, Pipeline.arrRef spec1 w ≠ b := by decide) :
    W8 m ρ c (Proc.devRef .tc b) = W5 m ρ c (Proc.devRef .tc b) := (W8_of_ne m ρ c b a1).trans (down7 m ρ c b a0 h1)
theorem down9 (b : Ref sig .tc) (a0 : ∀ w, Pipeline.arrRef spec0 w ≠ b := by decide) (h1 : b ∉ hostOps1_W := by decide)
    (a1 : ∀ w, Pipeline.arrRef spec1 w ≠ b := by decide) (h2 : b ∉ hostOps2_W := by decide) :
    W9 m ρ c (Proc.devRef .tc b) = W5 m ρ c (Proc.devRef .tc b) := (keep2 (W8 m ρ c) b h2).trans (down8 m ρ c b a0 h1 a1)
theorem down10 (b : Ref sig .tc) (a0 : ∀ w, Pipeline.arrRef spec0 w ≠ b := by decide) (h1 : b ∉ hostOps1_W := by decide)
    (a1 : ∀ w, Pipeline.arrRef spec1 w ≠ b := by decide) (h2 : b ∉ hostOps2_W := by decide)
    (a2 : ∀ w, Pipeline.arrRef spec2 w ≠ b := by decide) :
    W10 m ρ c (Proc.devRef .tc b) = W5 m ρ c (Proc.devRef .tc b) := (W10_of_ne m ρ c b a2).trans (down9 m ρ c b a0 h1 a1 h2)
theorem down11 (b : Ref sig .tc) (a0 : ∀ w, Pipeline.arrRef spec0 w ≠ b := by decide) (h1 : b ∉ hostOps1_W := by decide)
    (a1 : ∀ w, Pipeline.arrRef spec1 w ≠ b := by decide) (h2 : b ∉ hostOps2_W := by decide)
    (a2 : ∀ w, Pipeline.arrRef spec2 w ≠ b := by decide) (a3 : ∀ w, Pipeline.arrRef spec3 w ≠ b := by decide) :
    W11 m ρ c (Proc.devRef .tc b) = W5 m ρ c (Proc.devRef .tc b) := (W11_of_ne m ρ c b a3).trans (down10 m ρ c b a0 h1 a1 h2 a2)
theorem down13 (b : Ref sig .tc) (a0 : ∀ w, Pipeline.arrRef spec0 w ≠ b := by decide) (h1 : b ∉ hostOps1_W := by decide)
    (a1 : ∀ w, Pipeline.arrRef spec1 w ≠ b := by decide) (h2 : b ∉ hostOps2_W := by decide)
    (a2 : ∀ w, Pipeline.arrRef spec2 w ≠ b := by decide) (a3 : ∀ w, Pipeline.arrRef spec3 w ≠ b := by decide)
    (h4 : b ∉ hostOps4_W := by decide) (a4 : ∀ w, Pipeline.arrRef spec4 w ≠ b := by decide) :
    W13 m ρ c (Proc.devRef .tc b) = W5 m ρ c (Proc.devRef .tc b) :=
  (W13_of_ne m ρ c b a4).trans ((keep4 (W11 m ρ c) b h4).trans (down11 m ρ c b a0 h1 a1 h2 a2 a3))
theorem down15 (b : Ref sig .tc) (a0 : ∀ w, Pipeline.arrRef spec0 w ≠ b := by decide) (h1 : b ∉ hostOps1_W := by decide)
    (a1 : ∀ w, Pipeline.arrRef spec1 w ≠ b := by decide) (h2 : b ∉ hostOps2_W := by decide)
    (a2 : ∀ w, Pipeline.arrRef spec2 w ≠ b := by decide) (a3 : ∀ w, Pipeline.arrRef spec3 w ≠ b := by decide)
    (h4 : b ∉ hostOps4_W := by decide) (a4 : ∀ w, Pipeline.arrRef spec4 w ≠ b := by decide)
    (h5 : b ∉ hostOps5_W := by decide) (a5 : ∀ w, Pipeline.arrRef spec5 w ≠ b := by decide) :
    W15 m ρ c (Proc.devRef .tc b) = W5 m ρ c (Proc.devRef .tc b) :=
  (W15_of_ne m ρ c b a5).trans ((keep5 (W13 m ρ c) b h5).trans (down13 m ρ c b a0 h1 a1 h2 a2 a3 h4 a4))

/-! ### The values the two layers and the head pass along, as functions of the entry contents -/

/-- The norm as a column, the inverse square-root degrees as a column, the two bias rows, the bias row of the head. -/
abbrev nrmE : Mat 1600000 1 := shapeCast S1600000x1 (W5 m ρ c (Proc.devRef .tc main_v43)) shapeCasts_S1600000_S1600000x1
abbrev disE : Mat 100000 1 := shapeCast S100000x1 (W5 m ρ c (Proc.devRef .tc main_v27)) shapeCasts_S100000_S100000x1
abbrev b1E : Mat 1 128 := shapeCast S1x128 (W5 m ρ c (Proc.devRef .tc main_arg4)) shapeCasts_S128_S1x128
abbrev b2E : Mat 1 128 := shapeCast S1x128 (W5 m ρ c (Proc.devRef .tc main_arg6)) shapeCasts_S128_S1x128
abbrev brE : Mat 1 64 := shapeCast S1x64 (W5 m ρ c (Proc.devRef .tc main_arg8)) shapeCasts_S64_S1x64
/-- The first projection, the first layer's output, the second projection, the second layer's output. -/
def hw1 : Mat 100000 128 := mm (W5 m ρ c (Proc.devRef .tc main_arg0)) (W5 m ρ c (Proc.devRef .tc main_v44))
def h1 : Mat 100000 128 :=
  layer (gatherRows (W5 m ρ c (Proc.devRef .tc main_v1))) (scatterRows (W5 m ρ c (Proc.devRef .tc main_v3)))
    (W5 m ρ c (Proc.devRef .tc main_arg0)) (W5 m ρ c (Proc.devRef .tc main_v44)) (nrmE m ρ c) (disE m ρ c) (b1E m ρ c)
def hw2 : Mat 100000 128 := mm (h1 m ρ c) (W5 m ρ c (Proc.devRef .tc main_v45))
def h2 : Mat 100000 128 :=
  layer (gatherRows (W5 m ρ c (Proc.devRef .tc main_v1))) (scatterRows (W5 m ρ c (Proc.devRef .tc main_v3)))
    (h1 m ρ c) (W5 m ρ c (Proc.devRef .tc main_v45)) (nrmE m ρ c) (disE m ρ c) (b2E m ρ c)

/-! ### Layer 1 -/

theorem v6_46 : W6 m ρ c (Proc.devRef .tc main_v46) = hw1 m ρ c := (W6_arr m ρ c 2).trans (Proj0.final (V5 m ρ) c)
theorem v7_53 : W7 m ρ c (Proc.devRef .tc main_v53) = gatherRows (W5 m ρ c (Proc.devRef .tc main_v1)) (hw1 m ρ c) :=
  (s1_v53 (W6 m ρ c)).trans (congrArg₂ gatherRows (down6 m ρ c main_v1) (v6_46 m ρ c))
theorem v7_54 : W7 m ρ c (Proc.devRef .tc main_v54) = nrmE m ρ c :=
  (s1_v54 (W6 m ρ c)).trans
    (congrArg (fun x => shapeCast S1600000x1 x shapeCasts_S1600000_S1600000x1) (down6 m ρ c main_v43))
theorem v8_55 : W8 m ρ c (Proc.devRef .tc main_v55) = edge (gatherRows (W5 m ρ c (Proc.devRef .tc main_v1)) (hw1 m ρ c)) (nrmE m ρ c) :=
  ((W8_arr m ρ c 2).trans (Edge1.final (V7 m ρ) c)).trans (congrArg₂ edge (v7_53 m ρ c) (v7_54 m ρ c))
theorem v9_58 : W9 m ρ c (Proc.devRef .tc main_v58)
    = scatterRows (W5 m ρ c (Proc.devRef .tc main_v3)) (edge (gatherRows (W5 m ρ c (Proc.devRef .tc main_v1)) (hw1 m ρ c)) (nrmE m ρ c)) :=
  (s2_v58 (W8 m ρ c)).trans (congrArg₂ scatterRows (down8 m ρ c main_v3) (v8_55 m ρ c))
theorem v9_59 : W9 m ρ c (Proc.devRef .tc main_v59) = disE m ρ c :=
  (s2_v59 (W8 m ρ c)).trans
    (congrArg (fun x => shapeCast S100000x1 x shapeCasts_S100000_S100000x1) (down8 m ρ c main_v27))
theorem v9_60 : W9 m ρ c (Proc.devRef .tc main_v60) = b1E m ρ c :=
  (s2_v60 (W8 m ρ c)).trans (congrArg (fun x => shapeCast S1x128 x shapeCasts_S128_S1x128) (down8 m ρ c main_arg4))
theorem v9_46 : W9 m ρ c (Proc.devRef .tc main_v46) = hw1 m ρ c :=
  (keep2 (W8 m ρ c) main_v46).trans ((W8_of_ne m ρ c main_v46 (by decide)).trans
    ((keep1 (W6 m ρ c) main_v46).trans (v6_46 m ρ c)))
theorem v10_61 : W10 m ρ c (Proc.devRef .tc main_v61) = h1 m ρ c := by
  refine ((W10_arr m ρ c 4).trans (Node2.final (V9 m ρ) c)).trans ?_
  show node (W9 m ρ c (Proc.devRef .tc main_v58)) (W9 m ρ c (Proc.devRef .tc main_v46)) (W9 m ρ c (Proc.devRef .tc main_v59))
    (W9 m ρ c (Proc.devRef .tc main_v60)) = _
  rw [v9_58 m ρ c, v9_46 m ρ c, v9_59 m ρ c, v9_60 m ρ c]
  rfl

/-! ### Layer 2 -/

theorem v11_62 : W11 m ρ c (Proc.devRef .tc main_v62) = hw2 m ρ c :=
  ((W11_arr m ρ c 2).trans (Proj3.final (V10 m ρ) c)).trans (congrArg₂ mm (v10_61 m ρ c) (down10 m ρ c main_v45))
theorem v11_61 : W11 m ρ c (Proc.devRef .tc main_v61) = h1 m ρ c :=
  ((W11_arr m ρ c 0).trans (((dat3 (V10 m ρ) c).arrAt_in 0 rfl _).trans (A_eq3 (V10 m ρ) c 0))).trans (v10_61 m ρ c)
theorem v12_69 : W12 m ρ c (Proc.devRef .tc main_v69) = gatherRows (W5 m ρ c (Proc.devRef .tc main_v1)) (hw2 m ρ c) :=
  (s4_v69 (W11 m ρ c)).trans (congrArg₂ gatherRows (down11 m ρ c main_v1) (v11_62 m ρ c))
theorem v12_70 : W12 m ρ c (Proc.devRef .tc main_v70) = nrmE m ρ c :=
  (s4_v70 (W11 m ρ c)).trans
    (congrArg (fun x => shapeCast S1600000x1 x shapeCasts_S1600000_S1600000x1) (down11 m ρ c main_v43))
theorem v13_71 : W13 m ρ c (Proc.devRef .tc main_v71) = edge (gatherRows (W5 m ρ c (Proc.devRef .tc main_v1)) (hw2 m ρ c)) (nrmE m ρ c) :=
  ((W13_arr m ρ c 2).trans (Edge4.final (V12 m ρ) c)).trans (congrArg₂ edge (v12_69 m ρ c) (v12_70 m ρ c))
theorem v14_74 : W14 m ρ c (Proc.devRef .tc main_v74)
    = scatterRows (W5 m ρ c (Proc.devRef .tc main_v3)) (edge (gatherRows (W5 m ρ c (Proc.devRef .tc main_v1)) (hw2 m ρ c)) (nrmE m ρ c)) :=
  (s5_v74 (W13 m ρ c)).trans (congrArg₂ scatterRows (down13 m ρ c main_v3) (v13_71 m ρ c))
theorem v14_75 : W14 m ρ c (Proc.devRef .tc main_v75) = disE m ρ c :=
  (s5_v75 (W13 m ρ c)).trans
    (congrArg (fun x => shapeCast S100000x1 x shapeCasts_S100000_S100000x1) (down13 m ρ c main_v27))
theorem v14_76 : W14 m ρ c (Proc.devRef .tc main_v76) = b2E m ρ c :=
  (s5_v76 (W13 m ρ c)).trans (congrArg (fun x => shapeCast S1x128 x shapeCasts_S128_S1x128) (down13 m ρ c main_arg6))
theorem v14_62 : W14 m ρ c (Proc.devRef .tc main_v62) = hw2 m ρ c :=
  (keep5 (W13 m ρ c) main_v62).trans ((W13_of_ne m ρ c main_v62 (by decide)).trans
    ((keep4 (W11 m ρ c) main_v62).trans (v11_62 m ρ c)))
theorem v15_77 : W15 m ρ c (Proc.devRef .tc main_v77) = h2 m ρ c := by
  refine ((W15_arr m ρ c 4).trans (Node5.final (V14 m ρ) c)).trans ?_
  show node (W14 m ρ c (Proc.devRef .tc main_v74)) (W14 m ρ c (Proc.devRef .tc main_v62)) (W14 m ρ c (Proc.devRef .tc main_v75))
    (W14 m ρ c (Proc.devRef .tc main_v76)) = _
  rw [v14_74 m ρ c, v14_62 m ρ c, v14_75 m ρ c, v14_76 m ρ c]
  rfl

/-! ### The head -/

theorem v16_61 : W16 m ρ c (Proc.devRef .tc main_v61) = h1 m ρ c :=
  (keep6 (W15 m ρ c) main_v61).trans ((W15_of_ne m ρ c main_v61 (by decide)).trans
    ((keep5 (W13 m ρ c) main_v61).trans ((W13_of_ne m ρ c main_v61 (by decide)).trans
      ((keep4 (W11 m ρ c) main_v61).trans (v11_61 m ρ c)))))
theorem v16_77 : W16 m ρ c (Proc.devRef .tc main_v77) = h2 m ρ c := (keep6 (W15 m ρ c) main_v77).trans (v15_77 m ρ c)
theorem v16_79 : W16 m ρ c (Proc.devRef .tc main_v79) = headLeft (W5 m ρ c (Proc.devRef .tc main_arg7)) :=
  (s6_v79 (W15 m ρ c)).trans (congrArg headLeft (down15 m ρ c main_arg7))
theorem v16_81 : W16 m ρ c (Proc.devRef .tc main_v81) = headRight (W5 m ρ c (Proc.devRef .tc main_arg7)) :=
  (s6_v81 (W15 m ρ c)).trans (congrArg headRight (down15 m ρ c main_arg7))
theorem v16_82 : W16 m ρ c (Proc.devRef .tc main_v82) = brE m ρ c :=
  (s6_v82 (W15 m ρ c)).trans (congrArg (fun x => shapeCast S1x64 x shapeCasts_S64_S1x64) (down15 m ρ c main_arg8))

/-- THE KERNEL'S RESULT: the network function of the contents at the first region's entry. -/
theorem result : W17 m ρ c (Proc.devRef .tc main_v83)
    = out (gatherRows (W5 m ρ c (Proc.devRef .tc main_v1))) (scatterRows (W5 m ρ c (Proc.devRef .tc main_v3)))
        (W5 m ρ c (Proc.devRef .tc main_arg0)) (W5 m ρ c (Proc.devRef .tc main_v44)) (W5 m ρ c (Proc.devRef .tc main_v45))
        (nrmE m ρ c) (disE m ρ c) (b1E m ρ c) (b2E m ρ c)
        (headLeft (W5 m ρ c (Proc.devRef .tc main_arg7))) (headRight (W5 m ρ c (Proc.devRef .tc main_arg7))) (brE m ρ c) := by
  refine ((W17_arr m ρ c 5).trans (Head6.final (V16 m ρ) c)).trans ?_
  show head (W16 m ρ c (Proc.devRef .tc main_v61)) (W16 m ρ c (Proc.devRef .tc main_v77)) (W16 m ρ c (Proc.devRef .tc main_v79))
    (W16 m ρ c (Proc.devRef .tc main_v81)) (W16 m ρ c (Proc.devRef .tc main_v82)) = _
  rw [v16_61 m ρ c, v16_77 m ρ c, v16_79 m ρ c, v16_81 m ρ c, v16_82 m ρ c]
  rfl

end Levels

end Cert.KernelIdeal.Fold

end
-- ==== Proof.KernelPrefix.lean ====
/-
  The contents of the idealized kernel program's buffers when its first region is entered, as functions of the
  argument arrays. The program's first 63 host operations — the edge weights from the edge attributes (a row mean,
  its minimum and maximum, the normalised complement chosen where the spread exceeds the threshold, a clamp at zero),
  the degrees by a scatter-add of the weights at the target nodes plus one, their inverse square roots, the norm of
  each edge (the inverse square root at the source node, times the weight, times the inverse square root at the
  target node), the source and target node numbers, and the two transposed weight matrices — are the reference's
  first operations, so each buffer holds what the reference's stage of the same name computes of the same arguments.
  The weights are followed stretch by stretch: the spread test and the two candidates, the choice, the clamp; the
  degrees and the norms are then read over the clamped weights.
-/
import proofs.«100481_j63917703299286_2_alg».proof.Proof.Gen.KernelIdeal.Frame
import proofs.«100481_j63917703299286_2_alg».proof.Proof.RefRead
import Idealize.ShloMosaic.Lib.StableHlo.Run
import Idealize.ShloMosaic.PureOps.Ideal

noncomputable section

namespace Cert.KernelIdeal.Prefix

open Cert.KernelIdeal Cert.KernelIdeal.Gen Idealize.ShloMosaic Idealize.ShloMosaic.TcCoe Idealize.ShloMosaic.StableHlo
open Idealize.SL.Sem

/-! ## The two stretches that a called function's operations make, over any contents -/

/-- The choice between the two candidate weight vectors by the spread test. -/
theorem where_v20 (Wx : Valuation τ sig (Elt Ideal)) :
    StableHlo.after hostOps0_1 Wx (Proc.devRef .tc main_v20)
      = select (broadcastInDim S1600000 ![] bcast_S_S1600000 (Wx (Proc.devRef .tc main_v16)))
          (Wx (Proc.devRef .tc main_v18)) (Wx (Proc.devRef .tc main_v19)) := by
  after_results_simp
  rfl
/-- The clamp of the chosen weights at zero. -/
theorem clip_v21 (Wx : Valuation τ sig (Elt Ideal)) :
    StableHlo.after hostOps0_3 Wx (Proc.devRef .tc main_v21)
      = (maximumf (F := Ideal) (φ := .f32)
          (broadcastInDim S1600000 ![] bcast_S_S1600000
            (id (Wx (Proc.devRef .tc main_cst_7) : (⟨S_, .f32⟩ : BufTy).Contents (Elt Ideal))))
          (Wx (Proc.devRef .tc main_v20) : (⟨S1600000, .f32⟩ : BufTy).Contents (Elt Ideal))
          : (⟨S1600000, .f32⟩ : BufTy).Contents (Elt Ideal)) := by
  after_results_simp
  rfl

variable (m : (ℓ : Loc nD τ sig) → Buf (Elt Ideal) ℓ) (ρ : Dev nD → PrngReg) (c : Dev nD)

/-! ## The arguments the later stages read are as launched -/

theorem arg0 : W5 m ρ c (Proc.devRef .tc main_arg0) = m ((c.tc : Thread nD τ).loc main_arg0) := by
  show StableHlo.after hostOps0_4 (StableHlo.after hostOps0_3 (StableHlo.after hostOps0_2 (StableHlo.after hostOps0_1
      (StableHlo.after hostOps0 (W0 m ρ c))))) _ = _
  after_results_simp <;> rfl

theorem arg4 : W5 m ρ c (Proc.devRef .tc main_arg4) = m ((c.tc : Thread nD τ).loc main_arg4) := by
  show StableHlo.after hostOps0_4 (StableHlo.after hostOps0_3 (StableHlo.after hostOps0_2 (StableHlo.after hostOps0_1
      (StableHlo.after hostOps0 (W0 m ρ c))))) _ = _
  after_results_simp <;> rfl

theorem arg6 : W5 m ρ c (Proc.devRef .tc main_arg6) = m ((c.tc : Thread nD τ).loc main_arg6) := by
  show StableHlo.after hostOps0_4 (StableHlo.after hostOps0_3 (StableHlo.after hostOps0_2 (StableHlo.after hostOps0_1
      (StableHlo.after hostOps0 (W0 m ρ c))))) _ = _
  after_results_simp <;> rfl

theorem arg7 : W5 m ρ c (Proc.devRef .tc main_arg7) = m ((c.tc : Thread nD τ).loc main_arg7) := by
  show StableHlo.after hostOps0_4 (StableHlo.after hostOps0_3 (StableHlo.after hostOps0_2 (StableHlo.after hostOps0_1
      (StableHlo.after hostOps0 (W0 m ρ c))))) _ = _
  after_results_simp <;> rfl

theorem arg8 : W5 m ρ c (Proc.devRef .tc main_arg8) = m ((c.tc : Thread nD τ).loc main_arg8) := by
  show StableHlo.after hostOps0_4 (StableHlo.after hostOps0_3 (StableHlo.after hostOps0_2 (StableHlo.after hostOps0_1
      (StableHlo.after hostOps0 (W0 m ρ c))))) _ = _
  after_results_simp <;> rfl

/-! ## The edge weights, stretch by stretch -/

theorem a16 : W1 m ρ c (Proc.devRef .tc main_v16) = Cert.ReferenceIdeal.ReadP.val_main_v16 (F := Ideal) (m ((c.tc : Thread nD τ).loc main_arg2)) := by
  show StableHlo.after hostOps0 (W0 m ρ c) _ = _
  after_results_simp <;> rfl
theorem a18 : W1 m ρ c (Proc.devRef .tc main_v18) = Cert.ReferenceIdeal.ReadP.val_main_v18 (F := Ideal) (m ((c.tc : Thread nD τ).loc main_arg2)) := by
  show StableHlo.after hostOps0 (W0 m ρ c) _ = _
  after_results_simp <;> rfl
theorem a19 : W1 m ρ c (Proc.devRef .tc main_v19) = Cert.ReferenceIdeal.ReadP.val_main_v19 (F := Ideal) := by
  show StableHlo.after hostOps0 (W0 m ρ c) _ = _
  after_results_simp <;> rfl
theorem b20 : W2 m ρ c (Proc.devRef .tc main_v20) = Cert.ReferenceIdeal.ReadP.val_main_v20 (F := Ideal) (m ((c.tc : Thread nD τ).loc main_arg2)) := by
  refine (where_v20 (W1 m ρ c)).trans ?_
  rw [a16 m ρ c, a18 m ρ c, a19 m ρ c]
  rfl
theorem c20 : W3 m ρ c (Proc.devRef .tc main_v20) = Cert.ReferenceIdeal.ReadP.val_main_v20 (F := Ideal) (m ((c.tc : Thread nD τ).loc main_arg2)) := by
  refine Eq.trans ?_ (b20 m ρ c)
  show StableHlo.after hostOps0_2 (W2 m ρ c) _ = _
  generalize W2 m ρ c = Wx
  after_results_simp
theorem c7 : W3 m ρ c (Proc.devRef .tc main_cst_7) = constant (F := Ideal) S_ .f32 0x00000000#32 := by
  show StableHlo.after hostOps0_2 (W2 m ρ c) _ = _
  generalize W2 m ρ c = Wx
  after_results_simp <;> rfl
/-- The clamped edge weights. -/
theorem d21 : W4 m ρ c (Proc.devRef .tc main_v21) = Cert.ReferenceIdeal.ReadP.val_main_v21 (F := Ideal) (m ((c.tc : Thread nD τ).loc main_arg2)) := by
  refine (clip_v21 (W3 m ρ c)).trans ?_
  rw [c7 m ρ c, c20 m ρ c]
  rfl
theorem d1 : W4 m ρ c (Proc.devRef .tc main_v1) = Cert.ReferenceIdeal.ReadP.val_main_v1 (F := Ideal) (m ((c.tc : Thread nD τ).loc main_arg1)) := by
  show StableHlo.after hostOps0_3 (StableHlo.after hostOps0_2 (StableHlo.after hostOps0_1
      (StableHlo.after hostOps0 (W0 m ρ c)))) _ = _
  after_results_simp <;> rfl
theorem d3 : W4 m ρ c (Proc.devRef .tc main_v3) = Cert.ReferenceIdeal.ReadP.val_main_v3 (F := Ideal) (m ((c.tc : Thread nD τ).loc main_arg1)) := by
  show StableHlo.after hostOps0_3 (StableHlo.after hostOps0_2 (StableHlo.after hostOps0_1
      (StableHlo.after hostOps0 (W0 m ρ c)))) _ = _
  after_results_simp <;> rfl

/-! ## The values the later stages read -/

/-- The source node numbers. -/
theorem v1 : W5 m ρ c (Proc.devRef .tc main_v1) = Cert.ReferenceIdeal.ReadP.val_main_v1 (F := Ideal) (m ((c.tc : Thread nD τ).loc main_arg1)) := by
  show StableHlo.after hostOps0_4 (StableHlo.after hostOps0_3 (StableHlo.after hostOps0_2 (StableHlo.after hostOps0_1
      (StableHlo.after hostOps0 (W0 m ρ c))))) _ = _
  after_results_simp <;> rfl
/-- The target node numbers. -/
theorem v3 : W5 m ρ c (Proc.devRef .tc main_v3) = Cert.ReferenceIdeal.ReadP.val_main_v3 (F := Ideal) (m ((c.tc : Thread nD τ).loc main_arg1)) := by
  show StableHlo.after hostOps0_4 (StableHlo.after hostOps0_3 (StableHlo.after hostOps0_2 (StableHlo.after hostOps0_1
      (StableHlo.after hostOps0 (W0 m ρ c))))) _ = _
  after_results_simp <;> rfl
/-- The inverse square roots of the degrees. -/
theorem v27 : W5 m ρ c (Proc.devRef .tc main_v27) = Cert.ReferenceIdeal.ReadP.val_main_v27 (F := Ideal) (m ((c.tc : Thread nD τ).loc main_arg1)) (m ((c.tc : Thread nD τ).loc main_arg2)) := by
  show StableHlo.after hostOps0_4 (W4 m ρ c) _ = _
  have h3 := d3 m ρ c
  have h21 := d21 m ρ c
  generalize W4 m ρ c = Wx at h3 h21 ⊢
  after_results_simp
  rw [h3, h21]
  rfl
/-- The norm of each edge. -/
theorem v43 : W5 m ρ c (Proc.devRef .tc main_v43) = Cert.ReferenceIdeal.ReadP.val_main_v43 (F := Ideal) (m ((c.tc : Thread nD τ).loc main_arg1)) (m ((c.tc : Thread nD τ).loc main_arg2)) := by
  show StableHlo.after hostOps0_4 (W4 m ρ c) _ = _
  have h1 := d1 m ρ c
  have h3 := d3 m ρ c
  have h21 := d21 m ρ c
  generalize W4 m ρ c = Wx at h1 h3 h21 ⊢
  after_results_simp
  rw [h1, h3, h21]
  rfl
/-- The first layer's transposed weights. -/
theorem v44 : W5 m ρ c (Proc.devRef .tc main_v44) = Cert.ReferenceIdeal.ReadP.val_main_v44 (F := Ideal) (m ((c.tc : Thread nD τ).loc main_arg3)) := by
  show StableHlo.after hostOps0_4 (StableHlo.after hostOps0_3 (StableHlo.after hostOps0_2 (StableHlo.after hostOps0_1
      (StableHlo.after hostOps0 (W0 m ρ c))))) _ = _
  after_results_simp <;> rfl
/-- The second layer's transposed weights (the reference transposes them at its buffer 68). -/
theorem v45 : W5 m ρ c (Proc.devRef .tc main_v45) = Cert.ReferenceIdeal.ReadP.val_main_v68 (F := Ideal) (m ((c.tc : Thread nD τ).loc main_arg5)) := by
  show StableHlo.after hostOps0_4 (StableHlo.after hostOps0_3 (StableHlo.after hostOps0_2 (StableHlo.after hostOps0_1
      (StableHlo.after hostOps0 (W0 m ρ c))))) _ = _
  after_results_simp <;> rfl

end Cert.KernelIdeal.Prefix

end
-- ==== Proof.KernelForms.lean ====
/-
  The layout forms the idealized kernel program hands its regions, as the index-level forms of the network function:
  a vector reshaped to a column [n, 1] is the vector as a column, a vector reshaped to a row [1, d] is the vector as a
  row, and the transpose of the left (right) 128 columns of the head's [64, 256] weight matrix is the matrix whose
  entry (c, j) is the weight's entry (j, c) (entry (j, 128 + c)).
-/
import proofs.«100481_j63917703299286_2_alg».proof.Proof.Gen.KernelIdeal
import proofs.«100481_j63917703299286_2_alg».proof.Proof.LibGcnSpec
import proofs.«100481_j63917703299286_2_alg».proof.Proof.LibKernelIdx
import Idealize.ShloMosaic.Lib.Pipeline.Value
import Idealize.ShloMosaic.Lib.ValueIdx
import Idealize.ShloMosaic.Lib.ValueLayout

noncomputable section

namespace Cert.KernelIdeal.Forms

open Cert.KernelIdeal Cert.KernelIdeal.Gen Idealize.ShloMosaic Idealize.ShloMosaic.TcCoe Idealize.ShloMosaic.ValueIdx
open Cert.LibKernelIdx Cert.Gcn

theorem col_edges (v : (⟨S1600000, .f32⟩ : BufTy).Contents (Elt Ideal)) :
    (shapeCast S1600000x1 v shapeCasts_S1600000_S1600000x1 : Mat 1600000 1) = colOf v := by
  funext i
  obtain ⟨p, u, rfl⟩ : ∃ (p : Fin 1600000) (u : Fin 1), i = ix2 p u := ⟨i 0, i 1, eq_ix2 i⟩
  exact shapeCast_a_a1_apply v shapeCasts_S1600000_S1600000x1 p u

theorem col_nodes (v : (⟨S100000, .f32⟩ : BufTy).Contents (Elt Ideal)) :
    (shapeCast S100000x1 v shapeCasts_S100000_S100000x1 : Mat 100000 1) = colOf v := by
  funext i
  obtain ⟨p, u, rfl⟩ : ∃ (p : Fin 100000) (u : Fin 1), i = ix2 p u := ⟨i 0, i 1, eq_ix2 i⟩
  exact shapeCast_a_a1_apply v shapeCasts_S100000_S100000x1 p u

theorem row_128 (b : (⟨S128, .f32⟩ : BufTy).Contents (Elt Ideal)) :
    (shapeCast S1x128 b shapeCasts_S128_S1x128 : Mat 1 128) = rowOf b := by
  funext i
  obtain ⟨u, q, rfl⟩ : ∃ (u : Fin 1) (q : Fin 128), i = ix2 u q := ⟨i 0, i 1, eq_ix2 i⟩
  exact shapeCast_a_1a_apply b shapeCasts_S128_S1x128 u q

theorem row_64 (b : (⟨S64, .f32⟩ : BufTy).Contents (Elt Ideal)) :
    (shapeCast S1x64 b shapeCasts_S64_S1x64 : Mat 1 64) = rowOf b := by
  funext i
  obtain ⟨u, q, rfl⟩ : ∃ (u : Fin 1) (q : Fin 64), i = ix2 u q := ⟨i 0, i 1, eq_ix2 i⟩
  exact shapeCast_a_1a_apply b shapeCasts_S64_S1x64 u q

theorem left_half (w : (⟨S64x256, .f32⟩ : BufTy).Contents (Elt Ideal)) :
    (transpose S128x64 [1, 0] (extractStridedSlice S64x128 ![0, 0] w slices_S64x256_S64x128_0_0)
      transposes_S64x128_S128x64_1_0 : Mat 128 64) = trLeft (o := 64) (d := 128) w := by
  funext i
  obtain ⟨cc, j, rfl⟩ : ∃ (cc : Fin 128) (j : Fin 64), i = ix2 cc j := ⟨i 0, i 1, eq_ix2 i⟩
  refine (transpose_ix2_apply (extractStridedSlice S64x128 ![0, 0] w slices_S64x256_S64x128_0_0)
    transposes_S64x128_S128x64_1_0 cc j).trans ?_
  exact extractStridedSlice_apply ![0, 0] w slices_S64x256_S64x128_0_0 (ix2 j cc) (ix2 j (Fin.castAdd 128 cc))
    (fun a => match a with
      | ⟨0, _⟩ => by show j.val = 0 + j.val; omega
      | ⟨1, _⟩ => by show cc.val = 0 + cc.val; omega)

theorem right_half (w : (⟨S64x256, .f32⟩ : BufTy).Contents (Elt Ideal)) :
    (transpose S128x64 [1, 0] (extractStridedSlice S64x128 ![0, 128] w slices_S64x256_S64x128_0_128)
      transposes_S64x128_S128x64_1_0 : Mat 128 64) = trRight (o := 64) (d := 128) w := by
  funext i
  obtain ⟨cc, j, rfl⟩ : ∃ (cc : Fin 128) (j : Fin 64), i = ix2 cc j := ⟨i 0, i 1, eq_ix2 i⟩
  refine (transpose_ix2_apply (extractStridedSlice S64x128 ![0, 128] w slices_S64x256_S64x128_0_128)
    transposes_S64x128_S128x64_1_0 cc j).trans ?_
  exact extractStridedSlice_apply ![0, 128] w slices_S64x256_S64x128_0_128 (ix2 j cc) (ix2 j (Fin.natAdd 128 cc))
    (fun a => match a with
      | ⟨0, _⟩ => by show j.val = 0 + j.val; omega
      | ⟨1, _⟩ => by show 128 + cc.val = 128 + cc.val; rfl)

end Cert.KernelIdeal.Forms

end
-- ==== Proof.RefValue.lean ====
/-
  The reference program's result is the common network function of its arguments.

  The reference computes a two-layer graph convolution and a head over the two layers' outputs joined side by side.
  Stage by stage, each array it computes is one of the four array functions of the common specification:
  * a projection is a matrix product (`mm`) with a transposed weight;
  * the per-edge product of a gathered row with the edge's norm is `edge` (the reference multiplies with the norm first
    and the gathered entry second; multiplication of extended reals is commutative);
  * the aggregate plus the self term scaled by the squared degree factor plus the bias, rectified, is `node`;
  * the product of the joined outputs with the transposed head weight, plus the bias, is `head`: a sum over the 256
    joined columns is the sum over the first 128, which read layer 1's output, plus the sum over the last 128, which
    read layer 2's.
  The gather of rows and the scatter-add of rows are never looked into: each is one fixed function of a matrix, the
  same in both layers, because both layers gather at the same wrapped source-node numbers and scatter-add into the same
  zero matrix at the same target-node numbers.
-/
import proofs.«100481_j63917703299286_2_alg».proof.Proof.RefRead
import proofs.«100481_j63917703299286_2_alg».proof.Proof.LibGcnSpec
import proofs.«100481_j63917703299286_2_alg».proof.Proof.LibKernelIdx
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.ShloMosaic.ValueIdx Cert.Gcn

/-! ## The gather and the scatter-add, as two functions of a matrix -/

/-- The gather of rows of a projected feature matrix at the wrapped source-node numbers. -/
def gath (x1 : (⟨S2x1600000, .i32⟩ : BufTy).Contents (Elt Ideal)) : Mat 100000 128 → Mat 1600000 128 :=
  fun hw => Host.gather gather_S100000x128_S1600000x1_S1600000x128_1_0_n_n_0_1_1128 hw (ReadP.val_main_v52 (F := Ideal) x1)
/-- The scatter-add of edge rows into the zero matrix at the target-node numbers. -/
def scat (x1 : (⟨S2x1600000, .i32⟩ : BufTy).Contents (Elt Ideal)) : Mat 1600000 128 → Mat 100000 128 :=
  fun u => Host.scatterAdd scatter_S100000x128_S1600000x1_S1600000x128_1_0_0_1 (ReadP.val_main_v56 (F := Ideal)) (ReadP.val_main_v57 (F := Ideal) x1) u

/-! ## Layer 1 -/

/-- The first projection is the matrix product of the features with the transposed weight. -/
theorem v45_eq (x0 : (⟨S100000x128, .f32⟩ : BufTy).Contents (Elt Ideal)) (x3 : (⟨S128x128, .f32⟩ : BufTy).Contents (Elt Ideal)) :
    ReadP.val_main_v45 (F := Ideal) x0 x3 = mm x0 (ReadP.val_main_v44 (F := Ideal) x3) := by
  funext i
  obtain ⟨p, q, rfl⟩ : ∃ (p : Fin 100000) (q : Fin 128), i = ix2 p q := ⟨i 0, i 1, eq_ix2 i⟩
  rw [ReadP.val_main_v45_apply, mm_apply]
  refine Finset.sum_congr rfl fun k _ => ?_
  have el : ReadP.lidx_main_v45 (ix2 p q) k = ix2 p k := funext fun a => Fin.ext (by match a with | ⟨0, _⟩ => rfl | ⟨1, _⟩ => rfl)
  have er : ReadP.ridx_main_v45 (ix2 p q) k = ix2 k q := funext fun a => Fin.ext (by match a with | ⟨0, _⟩ => rfl | ⟨1, _⟩ => rfl)
  rw [el, er]

/-- The gathered rows are the gather function applied to the first projection. -/
theorem v53_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) :
    ReadP.val_main_v53 (F := Ideal) x0 x1 x3 = gath x1 (ReadP.val_main_v45 (F := Ideal) x0 x3) := rfl

/-- Each gathered row times its edge's norm: the norm stands first in the product, the gathered entry second. -/
theorem v55_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) :
    ReadP.val_main_v55 (F := Ideal) x0 x1 x2 x3 = edge (ReadP.val_main_v53 (F := Ideal) x0 x1 x3) (colOf (ReadP.val_main_v43 (F := Ideal) x1 x2)) := by
  funext i
  obtain ⟨p, q, rfl⟩ : ∃ (p : Fin 1600000) (q : Fin 128), i = ix2 p q := ⟨i 0, i 1, eq_ix2 i⟩
  have e1 : ReadP.idx_main_v46 (ReadP.idx_main_v54 (ix2 p q)) = ix1 p := funext fun a => Fin.ext (by match a with | ⟨0, _⟩ => rfl)
  rw [ReadP.val_main_v55_apply, ReadP.val_main_v54_apply, ReadP.val_main_v46_apply, e1, edge_apply, colOf_apply,
    Ideal.mulf_def]
  exact mul_comm _ _

/-- The scatter-added rows are the scatter function applied to the scaled gathered rows. -/
theorem v58_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) :
    ReadP.val_main_v58 (F := Ideal) x0 x1 x2 x3 = scat x1 (ReadP.val_main_v55 (F := Ideal) x0 x1 x2 x3) := rfl

/-- The first layer's output: aggregate plus squared-degree-scaled self term plus bias, rectified. -/
theorem v67_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) :
    ReadP.val_main_v67 (F := Ideal) x0 x1 x2 x3 x4
      = node (ReadP.val_main_v58 (F := Ideal) x0 x1 x2 x3) (ReadP.val_main_v45 (F := Ideal) x0 x3) (colOf (ReadP.val_main_v27 (F := Ideal) x1 x2)) (rowOf x4) := by
  funext i
  obtain ⟨p, q, rfl⟩ : ∃ (p : Fin 100000) (q : Fin 128), i = ix2 p q := ⟨i 0, i 1, eq_ix2 i⟩
  have e1 : ReadP.idx_main_v60 (ReadP.idx_main_v61 (ix2 p q)) = ix1 p := funext fun a => Fin.ext (by match a with | ⟨0, _⟩ => rfl)
  have e2 : ReadP.idx_main_v64 (ReadP.idx_main_v65 (ix2 p q)) = ix1 q := funext fun a => Fin.ext (by match a with | ⟨0, _⟩ => rfl)
  rw [ReadP.val_main_v67_apply, ReadP.val_main_v66_apply, ReadP.val_main_v63_apply, ReadP.val_main_v62_apply,
    ReadP.val_main_v61_apply, ReadP.val_main_v60_apply, ReadP.val_main_v59_apply, e1,
    ReadP.val_main_v65_apply, ReadP.val_main_v64_apply, e2,
    ReadP.val_main_call2_v0_apply, ReadP.val_main_call2_cst_apply,
    node_apply, colOf_apply, rowOf_apply]
  rfl

/-- Layer 1 of the reference is the common layer function of the features. -/
theorem v67_eq_layer (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) :
    ReadP.val_main_v67 (F := Ideal) x0 x1 x2 x3 x4
      = layer (gath x1) (scat x1) x0 (ReadP.val_main_v44 (F := Ideal) x3) (colOf (ReadP.val_main_v43 (F := Ideal) x1 x2))
          (colOf (ReadP.val_main_v27 (F := Ideal) x1 x2)) (rowOf x4) := by
  rw [v67_eq, v58_eq, v55_eq, v53_eq, v45_eq]
  rfl

/-! ## Layer 2: the same three stages over layer 1's output, with the second weight and bias -/

/-- The second projection is the matrix product of layer 1's output with the transposed second weight. -/
theorem v69_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    ReadP.val_main_v69 (F := Ideal) x0 x1 x2 x3 x4 x5 = mm (ReadP.val_main_v67 (F := Ideal) x0 x1 x2 x3 x4) (ReadP.val_main_v68 (F := Ideal) x5) := by
  funext i
  obtain ⟨p, q, rfl⟩ : ∃ (p : Fin 100000) (q : Fin 128), i = ix2 p q := ⟨i 0, i 1, eq_ix2 i⟩
  rw [ReadP.val_main_v69_apply, mm_apply]
  refine Finset.sum_congr rfl fun k _ => ?_
  have el : ReadP.lidx_main_v69 (ix2 p q) k = ix2 p k := funext fun a => Fin.ext (by match a with | ⟨0, _⟩ => rfl | ⟨1, _⟩ => rfl)
  have er : ReadP.ridx_main_v69 (ix2 p q) k = ix2 k q := funext fun a => Fin.ext (by match a with | ⟨0, _⟩ => rfl | ⟨1, _⟩ => rfl)
  rw [el, er]

/-- The second gather reads at the same wrapped source-node numbers as the first. -/
theorem v76_eq (x1 : (⟨S2x1600000, .i32⟩ : BufTy).Contents (Elt Ideal)) : ReadP.val_main_v76 (F := Ideal) x1 = ReadP.val_main_v52 (F := Ideal) x1 := rfl

/-- The second layer's gathered rows are the gather function applied to the second projection. -/
theorem v77_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    ReadP.val_main_v77 (F := Ideal) x0 x1 x2 x3 x4 x5 = gath x1 (ReadP.val_main_v69 (F := Ideal) x0 x1 x2 x3 x4 x5) := rfl

/-- Each row gathered in layer 2 times its edge's norm. -/
theorem v79_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    ReadP.val_main_v79 (F := Ideal) x0 x1 x2 x3 x4 x5
      = edge (ReadP.val_main_v77 (F := Ideal) x0 x1 x2 x3 x4 x5) (colOf (ReadP.val_main_v43 (F := Ideal) x1 x2)) := by
  funext i
  obtain ⟨p, q, rfl⟩ : ∃ (p : Fin 1600000) (q : Fin 128), i = ix2 p q := ⟨i 0, i 1, eq_ix2 i⟩
  have e1 : ReadP.idx_main_v70 (ReadP.idx_main_v78 (ix2 p q)) = ix1 p := funext fun a => Fin.ext (by match a with | ⟨0, _⟩ => rfl)
  rw [ReadP.val_main_v79_apply, ReadP.val_main_v78_apply, ReadP.val_main_v70_apply, e1, edge_apply, colOf_apply,
    Ideal.mulf_def]
  exact mul_comm _ _

/-- The second scatter-add starts from the same zero matrix and adds at the same target-node numbers. -/
theorem v80_eq : ReadP.val_main_v80 (F := Ideal) = ReadP.val_main_v56 (F := Ideal) := rfl
/-- The target-node numbers as a column are the same array in both layers. -/
theorem v81_eq (x1 : (⟨S2x1600000, .i32⟩ : BufTy).Contents (Elt Ideal)) : ReadP.val_main_v81 (F := Ideal) x1 = ReadP.val_main_v57 (F := Ideal) x1 := rfl

/-- The second layer's scatter-added rows are the scatter function applied to its scaled gathered rows. -/
theorem v82_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    ReadP.val_main_v82 (F := Ideal) x0 x1 x2 x3 x4 x5 = scat x1 (ReadP.val_main_v79 (F := Ideal) x0 x1 x2 x3 x4 x5) := rfl

/-- The second layer's output. -/
theorem v91_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    ReadP.val_main_v91 (F := Ideal) x0 x1 x2 x3 x4 x5 x6
      = node (ReadP.val_main_v82 (F := Ideal) x0 x1 x2 x3 x4 x5) (ReadP.val_main_v69 (F := Ideal) x0 x1 x2 x3 x4 x5) (colOf (ReadP.val_main_v27 (F := Ideal) x1 x2)) (rowOf x6) := by
  funext i
  obtain ⟨p, q, rfl⟩ : ∃ (p : Fin 100000) (q : Fin 128), i = ix2 p q := ⟨i 0, i 1, eq_ix2 i⟩
  have e1 : ReadP.idx_main_v84 (ReadP.idx_main_v85 (ix2 p q)) = ix1 p := funext fun a => Fin.ext (by match a with | ⟨0, _⟩ => rfl)
  have e2 : ReadP.idx_main_v88 (ReadP.idx_main_v89 (ix2 p q)) = ix1 q := funext fun a => Fin.ext (by match a with | ⟨0, _⟩ => rfl)
  rw [ReadP.val_main_v91_apply, ReadP.val_main_v90_apply, ReadP.val_main_v87_apply, ReadP.val_main_v86_apply,
    ReadP.val_main_v85_apply, ReadP.val_main_v84_apply, ReadP.val_main_v83_apply, e1,
    ReadP.val_main_v89_apply, ReadP.val_main_v88_apply, e2,
    ReadP.val_main_call3_v0_apply, ReadP.val_main_call3_cst_apply,
    node_apply, colOf_apply, rowOf_apply]
  rfl

/-- Layer 2 of the reference is the common layer function of layer 1's output. -/
theorem v91_eq_layer (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    ReadP.val_main_v91 (F := Ideal) x0 x1 x2 x3 x4 x5 x6
      = layer (gath x1) (scat x1) (ReadP.val_main_v67 (F := Ideal) x0 x1 x2 x3 x4) (ReadP.val_main_v68 (F := Ideal) x5) (colOf (ReadP.val_main_v43 (F := Ideal) x1 x2))
          (colOf (ReadP.val_main_v27 (F := Ideal) x1 x2)) (rowOf x6) := by
  rw [v91_eq, v82_eq, v79_eq, v77_eq, v69_eq]
  rfl

/-! ## The head: the product of the concatenated layer outputs with the transposed head weight, plus the bias -/

/-- The concatenation read in its first 128 columns is layer 1's output. -/
theorem v92_left (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (p : Fin 100000) (j : Fin 64) (c : Fin 128) :
    ReadP.val_main_v92 (F := Ideal) x0 x1 x2 x3 x4 x5 x6 (ReadP.lidx_main_v94 (ix2 p j) (Fin.castAdd 128 c))
      = ReadP.val_main_v67 (F := Ideal) x0 x1 x2 x3 x4 (ix2 p c) := by
  unfold ReadP.val_main_v92
  exact concatenate_pair_apply_left (1 : Fin S100000x256.rank) _ _ concatenates_S100000x128_S100000x128_S100000x256_d1 _ rfl
    (ix2 p c) (fun b => by match b with | ⟨0, _⟩ => rfl | ⟨1, _⟩ => rfl)

/-- The concatenation read in its last 128 columns is layer 2's output. -/
theorem v92_right (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (p : Fin 100000) (j : Fin 64) (c : Fin 128) :
    ReadP.val_main_v92 (F := Ideal) x0 x1 x2 x3 x4 x5 x6 (ReadP.lidx_main_v94 (ix2 p j) (Fin.natAdd 128 c))
      = ReadP.val_main_v91 (F := Ideal) x0 x1 x2 x3 x4 x5 x6 (ix2 p c) := by
  unfold ReadP.val_main_v92
  exact concatenate_pair_apply_right (1 : Fin S100000x256.rank) _ _ concatenates_S100000x128_S100000x128_S100000x256_d1 _ rfl rfl
    (ix2 p c) (fun b hb => by match b, hb with | ⟨0, _⟩, _ => rfl | ⟨1, _⟩, hb => exact absurd rfl hb)
    (by show c.val + 128 = 128 + c.val; exact Nat.add_comm _ _)

/-- The result: two products added, plus the bias row. A sum over the 256 joined columns is the sum over the first 128
    plus the sum over the last 128. -/
theorem v97_eq (x0 : (⟨S100000x128, .f32⟩ : BufTy).Contents (Elt Ideal)) (x1 : (⟨S2x1600000, .i32⟩ : BufTy).Contents (Elt Ideal)) (x2 : (⟨S1600000x4, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S64x256, .f32⟩ : BufTy).Contents (Elt Ideal)) (x8 : (⟨S64, .f32⟩ : BufTy).Contents (Elt Ideal)) :
    ReadP.val_main_v97 (F := Ideal) x0 x1 x2 x3 x4 x5 x6 x7 x8
      = head (ReadP.val_main_v67 (F := Ideal) x0 x1 x2 x3 x4) (ReadP.val_main_v91 (F := Ideal) x0 x1 x2 x3 x4 x5 x6)
          (trLeft (d := 128) x7) (trRight (d := 128) x7) (rowOf x8) := by
  funext i
  obtain ⟨p, j, rfl⟩ : ∃ (p : Fin 100000) (j : Fin 64), i = ix2 p j := ⟨i 0, i 1, eq_ix2 i⟩
  have e1 : ReadP.idx_main_v95 (ReadP.idx_main_v96 (ix2 p j)) = ix1 j := funext fun a => Fin.ext (by match a with | ⟨0, _⟩ => rfl)
  rw [ReadP.val_main_v97_apply, ReadP.val_main_v94_apply, ReadP.val_main_v96_apply, ReadP.val_main_v95_apply, e1,
    head_apply, rowOf_apply, Ideal.addf_def]
  refine congrArg (· + x8 (ix1 j)) ?_
  refine (sum_halves (d := 128) fun k : Fin (128 + 128) =>
    ReadP.val_main_v92 (F := Ideal) x0 x1 x2 x3 x4 x5 x6 (ReadP.lidx_main_v94 (ix2 p j) k)
      * ReadP.val_main_v93 (F := Ideal) x7 (ReadP.ridx_main_v94 (ix2 p j) k)).trans ?_
  refine congrArg₂ (· + ·) (Finset.sum_congr rfl fun c _ => ?_) (Finset.sum_congr rfl fun c _ => ?_)
  · have er : ReadP.idx_main_v93 (ReadP.ridx_main_v94 (ix2 p j) (Fin.castAdd 128 c)) = ix2 j (Fin.castAdd 128 c) := funext fun a => Fin.ext (by match a with | ⟨0, _⟩ => rfl | ⟨1, _⟩ => rfl)
    rw [v92_left, ReadP.val_main_v93_apply, er, trLeft_apply]
  · have er : ReadP.idx_main_v93 (ReadP.ridx_main_v94 (ix2 p j) (Fin.natAdd 128 c)) = ix2 j (Fin.natAdd 128 c) := funext fun a => Fin.ext (by match a with | ⟨0, _⟩ => rfl | ⟨1, _⟩ => rfl)
    rw [v92_right, ReadP.val_main_v93_apply, er, trRight_apply]

/-! ## The whole reference -/

theorem val_eq_out (x0 : (⟨S100000x128, .f32⟩ : BufTy).Contents (Elt Ideal)) (x1 : (⟨S2x1600000, .i32⟩ : BufTy).Contents (Elt Ideal))
    (x2 : (⟨S1600000x4, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S64x256, .f32⟩ : BufTy).Contents (Elt Ideal))
    (x8 : (⟨S64, .f32⟩ : BufTy).Contents (Elt Ideal)) :
    ReadP.val_main_v97 (F := Ideal) x0 x1 x2 x3 x4 x5 x6 x7 x8
      = out (gath x1) (scat x1) x0 (ReadP.val_main_v44 (F := Ideal) x3) (ReadP.val_main_v68 (F := Ideal) x5)
          (colOf (ReadP.val_main_v43 (F := Ideal) x1 x2)) (colOf (ReadP.val_main_v27 (F := Ideal) x1 x2))
          (rowOf x4) (rowOf x6) (trLeft (d := 128) x7) (trRight (d := 128) x7) (rowOf x8) := by
  rw [v97_eq, v91_eq_layer, v67_eq_layer]
  rfl

end Cert.ReferenceIdeal.Hand
end
-- ==== Proof.Bridge.lean ====
/-
  The two programs compute one function. `net` is that function of the nine argument arrays: the network function
  `out` — two graph-convolution layers and the head — over the first layer's features, the two transposed weight
  matrices, the edge norms and the inverse square-root degrees as columns, the bias vectors as rows and the two
  transposed halves of the head's weight matrix, with the gather of rows at the wrapped source-node numbers and the
  scatter-add at the target-node numbers as its two opaque functions.
  * The reference's result stage is `net` of its arguments (the stage-by-stage reading of the reference).
  * The idealized kernel program's result buffer ends holding `out` of the contents at its first region's entry (the
    walk over its segments); those contents are the reference's stages of the same arguments (the common prefix of host
    operations), a reshaped vector is the vector as a column or a row, the cut and transposed halves of the head's
    weights are the index-level halves, and the kernel program's gather and scatter-add are, term for term, the
    reference's. So it is `net` of the kernel program's arguments.
-/
import proofs.«100481_j63917703299286_2_alg».proof.Proof.Fold
import proofs.«100481_j63917703299286_2_alg».proof.Proof.KernelPrefix
import proofs.«100481_j63917703299286_2_alg».proof.Proof.KernelForms
import proofs.«100481_j63917703299286_2_alg».proof.Proof.RefValue

noncomputable section

namespace Cert.Proof.Net

open Idealize.ShloMosaic Idealize.ShloMosaic.TcCoe Idealize.SL.Sem Cert.Gcn

/-- The network function of the nine argument arrays. -/
def net (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S1600000x4, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S64x256, .f32⟩ : BufTy).Contents (Elt Ideal)) (x8 : (⟨Cert.ReferenceIdeal.S64, .f32⟩ : BufTy).Contents (Elt Ideal)) : Mat 100000 64 :=
  out (Cert.ReferenceIdeal.Hand.gath x1) (Cert.ReferenceIdeal.Hand.scat x1) x0
    (Cert.ReferenceIdeal.ReadP.val_main_v44 (F := Ideal) x3) (Cert.ReferenceIdeal.ReadP.val_main_v68 (F := Ideal) x5)
    (colOf (Cert.ReferenceIdeal.ReadP.val_main_v43 (F := Ideal) x1 x2))
    (colOf (Cert.ReferenceIdeal.ReadP.val_main_v27 (F := Ideal) x1 x2))
    (rowOf x4) (rowOf x6) (trLeft (d := 128) x7) (trRight (d := 128) x7) (rowOf x8)

/-- The reference's result stage is the network function of its arguments. -/
theorem ref_net (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S1600000x4, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S64x256, .f32⟩ : BufTy).Contents (Elt Ideal)) (x8 : (⟨Cert.ReferenceIdeal.S64, .f32⟩ : BufTy).Contents (Elt Ideal)) :
    Cert.ReferenceIdeal.ReadP.val_main_v97 (F := Ideal) x0 x1 x2 x3 x4 x5 x6 x7 x8 = net x0 x1 x2 x3 x4 x5 x6 x7 x8 :=
  Cert.ReferenceIdeal.Hand.val_eq_out x0 x1 x2 x3 x4 x5 x6 x7 x8

/-- The kernel program's gather of rows at the source-node numbers is the reference's: the same operations on the
    same numbers (wrap the negative ones by the extent, make a column, gather). -/
theorem gath_eq (x1 : (⟨Cert.ReferenceIdeal.S2x1600000, .i32⟩ : BufTy).Contents (Elt Ideal)) :
    Cert.KernelIdeal.Fold.gatherRows (Cert.ReferenceIdeal.ReadP.val_main_v1 (F := Ideal) x1)
      = Cert.ReferenceIdeal.Hand.gath x1 := rfl

/-- The kernel program's scatter-add at the target-node numbers is the reference's. -/
theorem scat_eq (x1 : (⟨Cert.ReferenceIdeal.S2x1600000, .i32⟩ : BufTy).Contents (Elt Ideal)) :
    Cert.KernelIdeal.Fold.scatterRows (Cert.ReferenceIdeal.ReadP.val_main_v3 (F := Ideal) x1)
      = Cert.ReferenceIdeal.Hand.scat x1 := rfl

/-- The idealized kernel program's result buffer ends holding the network function of its arguments. -/
theorem kernel_net (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W17 m ρ c (Proc.devRef .tc Cert.KernelIdeal.main_v83)
      = net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  refine (Cert.KernelIdeal.Fold.result m ρ c).trans ?_
  simp only [Cert.KernelIdeal.Fold.nrmE, Cert.KernelIdeal.Fold.disE, Cert.KernelIdeal.Fold.b1E, Cert.KernelIdeal.Fold.b2E,
    Cert.KernelIdeal.Fold.brE, Cert.KernelIdeal.Fold.headLeft, Cert.KernelIdeal.Fold.headRight]
  rw [Cert.KernelIdeal.Prefix.v1 m ρ c, Cert.KernelIdeal.Prefix.v3 m ρ c, Cert.KernelIdeal.Prefix.arg0 m ρ c,
    Cert.KernelIdeal.Prefix.v44 m ρ c, Cert.KernelIdeal.Prefix.v45 m ρ c, Cert.KernelIdeal.Prefix.v43 m ρ c,
    Cert.KernelIdeal.Prefix.v27 m ρ c, Cert.KernelIdeal.Prefix.arg4 m ρ c, Cert.KernelIdeal.Prefix.arg6 m ρ c,
    Cert.KernelIdeal.Prefix.arg7 m ρ c, Cert.KernelIdeal.Prefix.arg8 m ρ c]
  rw [Cert.KernelIdeal.Forms.col_edges, Cert.KernelIdeal.Forms.col_nodes, Cert.KernelIdeal.Forms.row_128,
    Cert.KernelIdeal.Forms.row_128, Cert.KernelIdeal.Forms.left_half, Cert.KernelIdeal.Forms.right_half,
    Cert.KernelIdeal.Forms.row_64, gath_eq, scat_eq]
  rfl

end Cert.Proof.Net

end
-- ==== Proof.RefRun.lean ====
/-
  The idealized reference's run, read in ten consecutive stretches of its 125 host operations. After each stretch the
  buffers a later stretch reads hold the stage of the same name — a function of the argument arrays — and a stretch
  is read over contents left as a variable, so that no step ever compares more than one stretch's operations:
  the edge-attribute statistics and the two candidate weight vectors; the choice between them; the clamp at zero; the
  degrees, their inverse square roots and the edge norms; the first layer up to its rectification; the rectification;
  the second layer likewise; and the head, whose concatenation reads the two layers' outputs as two whole arrays.
  The run itself is then the sequence rule for a line of host operations, with the result and the nine arguments read
  back through the stretches.
-/
import proofs.«100481_j63917703299286_2_alg».proof.Proof.RefOps
import proofs.«100481_j63917703299286_2_alg».proof.Proof.RefRead
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem
open Idealize.ShloMosaic.StableHlo Cert.ReferenceIdeal.ValueP

/-- The contents after two lines in a row are the second line's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## The ten stretches, cut from the program's own list of operations -/

abbrev oA : List (HloOp τ sig (Elt Ideal)) := (ops (F := Ideal)).take 28
abbrev oB : List (HloOp τ sig (Elt Ideal)) := ((ops (F := Ideal)).drop 28).take 1
abbrev oC : List (HloOp τ sig (Elt Ideal)) := ((ops (F := Ideal)).drop 29).take 1
abbrev oD : List (HloOp τ sig (Elt Ideal)) := ((ops (F := Ideal)).drop 30).take 3
abbrev oE : List (HloOp τ sig (Elt Ideal)) := ((ops (F := Ideal)).drop 33).take 29
abbrev o2a : List (HloOp τ sig (Elt Ideal)) := ((ops (F := Ideal)).drop 62).take 25
abbrev o2r : List (HloOp τ sig (Elt Ideal)) := ((ops (F := Ideal)).drop 87).take 3
abbrev o3a : List (HloOp τ sig (Elt Ideal)) := ((ops (F := Ideal)).drop 90).take 26
abbrev o3r : List (HloOp τ sig (Elt Ideal)) := ((ops (F := Ideal)).drop 116).take 3
abbrev o4 : List (HloOp τ sig (Elt Ideal)) := (ops (F := Ideal)).drop 119

set_option maxRecDepth 65536 in
theorem ops_split : (ops (F := Ideal))
    = oA ++ (oB ++ (oC ++ (oD ++ (oE ++ (o2a ++ (o2r ++ (o3a ++ (o3r ++ o4)))))))) := rfl

/-! ## The stretches a called function's operations make, over any contents -/

section Generic
variable (Wx : Valuation τ sig (Elt Ideal))

/-- The choice between the two candidate weight vectors by the spread test. -/
theorem where_v20 : after oB Wx (Proc.devRef .tc main_v20)
    = select (broadcastInDim S1600000 ![] bcast_S_S1600000 (Wx (Proc.devRef .tc main_v16))) (Wx (Proc.devRef .tc main_v18)) (Wx (Proc.devRef .tc main_v19)) := by
  simp only [oA, oB, oC, oD, oE, o2a, o2r, o3a, o3r, o4, ops, List.take_succ_cons, List.take_zero, List.drop_succ_cons, List.drop_zero]
  after_results_simp
  rfl
/-- The clamp of the chosen weights at zero. -/
theorem clip_v21 : after oD Wx (Proc.devRef .tc main_v21)
    = (maximumf (F := Ideal) (φ := .f32)
        (broadcastInDim S1600000 ![] bcast_S_S1600000 (id (Wx (Proc.devRef .tc main_cst_7) : (⟨S_, .f32⟩ : BufTy).Contents (Elt Ideal))))
        (Wx (Proc.devRef .tc main_v20) : (⟨S1600000, .f32⟩ : BufTy).Contents (Elt Ideal))
        : (⟨S1600000, .f32⟩ : BufTy).Contents (Elt Ideal)) := by
  simp only [oA, oB, oC, oD, oE, o2a, o2r, o3a, o3r, o4, ops, List.take_succ_cons, List.take_zero, List.drop_succ_cons, List.drop_zero]
  after_results_simp
  rfl
/-- The first layer's rectification. -/
theorem relu_v67 : after o2r Wx (Proc.devRef .tc main_v67)
    = (maximumf (F := Ideal) (φ := .f32) (Wx (Proc.devRef .tc main_v66) : (⟨S100000x128, .f32⟩ : BufTy).Contents (Elt Ideal))
        (broadcastInDim S100000x128 ![] bcast_S_S100000x128 (constant (F := Ideal) S_ .f32 0x00000000#32))
        : (⟨S100000x128, .f32⟩ : BufTy).Contents (Elt Ideal)) := by
  simp only [oA, oB, oC, oD, oE, o2a, o2r, o3a, o3r, o4, ops, List.take_succ_cons, List.take_zero, List.drop_succ_cons, List.drop_zero]
  after_results_simp
  rfl
/-- The second layer's rectification. -/
theorem relu_v91 : after o3r Wx (Proc.devRef .tc main_v91)
    = (maximumf (F := Ideal) (φ := .f32) (Wx (Proc.devRef .tc main_v90) : (⟨S100000x128, .f32⟩ : BufTy).Contents (Elt Ideal))
        (broadcastInDim S100000x128 ![] bcast_S_S100000x128 (constant (F := Ideal) S_ .f32 0x00000000#32))
        : (⟨S100000x128, .f32⟩ : BufTy).Contents (Elt Ideal)) := by
  simp only [oA, oB, oC, oD, oE, o2a, o2r, o3a, o3r, o4, ops, List.take_succ_cons, List.take_zero, List.drop_succ_cons, List.drop_zero]
  after_results_simp
  rfl

end Generic

/-! ## The contents after each stretch -/

section Boundaries
variable (m : (ℓ : Loc nD τ sig) → Buf (Elt Ideal) ℓ) (c : Dev nD)

abbrev R0 : Valuation τ sig (Elt Ideal) := launchContents m c
abbrev RA : Valuation τ sig (Elt Ideal) := after oA (R0 m c)
abbrev RB : Valuation τ sig (Elt Ideal) := after oB (RA m c)
abbrev RC : Valuation τ sig (Elt Ideal) := after oC (RB m c)
abbrev RD : Valuation τ sig (Elt Ideal) := after oD (RC m c)
abbrev RE : Valuation τ sig (Elt Ideal) := after oE (RD m c)
abbrev R2a : Valuation τ sig (Elt Ideal) := after o2a (RE m c)
abbrev R2 : Valuation τ sig (Elt Ideal) := after o2r (R2a m c)
abbrev R3a : Valuation τ sig (Elt Ideal) := after o3a (R2 m c)
abbrev R3 : Valuation τ sig (Elt Ideal) := after o3r (R3a m c)
abbrev R4 : Valuation τ sig (Elt Ideal) := after o4 (R3 m c)

/-! ### The edge weights -/

theorem a16 : RA m c (Proc.devRef .tc main_v16) = Cert.ReferenceIdeal.ReadP.val_main_v16 (F := Ideal) (m ((c.tc : Thread nD τ).loc main_arg2)) := by
  show after oA (R0 m c) _ = _
  simp only [oA, oB, oC, oD, oE, o2a, o2r, o3a, o3r, o4, ops, List.take_succ_cons, List.take_zero, List.drop_succ_cons, List.drop_zero]
  after_results_simp <;> rfl
theorem a18 : RA m c (Proc.devRef .tc main_v18) = Cert.ReferenceIdeal.ReadP.val_main_v18 (F := Ideal) (m ((c.tc : Thread nD τ).loc main_arg2)) := by
  show after oA (R0 m c) _ = _
  simp only [oA, oB, oC, oD, oE, o2a, o2r, o3a, o3r, o4, ops, List.take_succ_cons, List.take_zero, List.drop_succ_cons, List.drop_zero]
  after_results_simp <;> rfl
theorem a19 : RA m c (Proc.devRef .tc main_v19) = Cert.ReferenceIdeal.ReadP.val_main_v19 (F := Ideal) := by
  show after oA (R0 m c) _ = _
  simp only [oA, oB, oC, oD, oE, o2a, o2r, o3a, o3r, o4, ops, List.take_succ_cons, List.take_zero, List.drop_succ_cons, List.drop_zero]
  after_results_simp <;> rfl
theorem b20 : RB m c (Proc.devRef .tc main_v20) = Cert.ReferenceIdeal.ReadP.val_main_v20 (F := Ideal) (m ((c.tc : Thread nD τ).loc main_arg2)) := by
  refine (where_v20 (RA m c)).trans ?_
  rw [a16 m c, a18 m c, a19 m c]
  rfl
theorem c20 : RC m c (Proc.devRef .tc main_v20) = Cert.ReferenceIdeal.ReadP.val_main_v20 (F := Ideal) (m ((c.tc : Thread nD τ).loc main_arg2)) := by
  refine Eq.trans ?_ (b20 m c)
  show after oC (RB m c) _ = _
  generalize RB m c = Wx
  simp only [oA, oB, oC, oD, oE, o2a, o2r, o3a, o3r, o4, ops, List.take_succ_cons, List.take_zero, List.drop_succ_cons, List.drop_zero]
  after_results_simp
theorem c7 : RC m c (Proc.devRef .tc main_cst_7) = constant (F := Ideal) S_ .f32 0x00000000#32 := by
  show after oC (RB m c) _ = _
  generalize RB m c = Wx
  simp only [oA, oB, oC, oD, oE, o2a, o2r, o3a, o3r, o4, ops, List.take_succ_cons, List.take_zero, List.drop_succ_cons, List.drop_zero]
  after_results_simp <;> rfl
theorem d21 : RD m c (Proc.devRef .tc main_v21) = Cert.ReferenceIdeal.ReadP.val_main_v21 (F := Ideal) (m ((c.tc : Thread nD τ).loc main_arg2)) := by
  refine (clip_v21 (RC m c)).trans ?_
  rw [c7 m c, c20 m c]
  rfl
theorem d1 : RD m c (Proc.devRef .tc main_v1) = Cert.ReferenceIdeal.ReadP.val_main_v1 (F := Ideal) (m ((c.tc : Thread nD τ).loc main_arg1)) := by
  show after oD (after oC (after oB (after oA (R0 m c)))) _ = _
  simp only [oA, oB, oC, oD, oE, o2a, o2r, o3a, o3r, o4, ops, List.take_succ_cons, List.take_zero, List.drop_succ_cons, List.drop_zero]
  after_results_simp <;> rfl
theorem d3 : RD m c (Proc.devRef .tc main_v3) = Cert.ReferenceIdeal.ReadP.val_main_v3 (F := Ideal) (m ((c.tc : Thread nD τ).loc main_arg1)) := by
  show after oD (after oC (after oB (after oA (R0 m c)))) _ = _
  simp only [oA, oB, oC, oD, oE, o2a, o2r, o3a, o3r, o4, ops, List.take_succ_cons, List.take_zero, List.drop_succ_cons, List.drop_zero]
  after_results_simp <;> rfl
theorem dArg (k : Ref sig .tc) (hk : k ∈ [main_arg0, main_arg3, main_arg4, main_arg5, main_arg6, main_arg7, main_arg8]) :
    RD m c (Proc.devRef .tc k) = R0 m c (Proc.devRef .tc k) := by
  show after oD (after oC (after oB (after oA (R0 m c)))) _ = _
  generalize R0 m c = Wx
  simp only [List.mem_cons, List.mem_singleton, List.not_mem_nil, or_false] at hk
  rcases hk with rfl | rfl | rfl | rfl | rfl | rfl | rfl <;> (simp only [oA, oB, oC, oD, oE, o2a, o2r, o3a, o3r, o4, ops, List.take_succ_cons, List.take_zero, List.drop_succ_cons, List.drop_zero]; after_results_simp)

/-! ### Degrees, norms, node numbers, the first weights -/

theorem e1 : RE m c (Proc.devRef .tc main_v1) = Cert.ReferenceIdeal.ReadP.val_main_v1 (F := Ideal) (m ((c.tc : Thread nD τ).loc main_arg1)) := by
  refine Eq.trans ?_ (d1 m c)
  show after oE (RD m c) _ = _
  generalize RD m c = Wx
  simp only [oA, oB, oC, oD, oE, o2a, o2r, o3a, o3r, o4, ops, List.take_succ_cons, List.take_zero, List.drop_succ_cons, List.drop_zero]
  after_results_simp
theorem e3 : RE m c (Proc.devRef .tc main_v3) = Cert.ReferenceIdeal.ReadP.val_main_v3 (F := Ideal) (m ((c.tc : Thread nD τ).loc main_arg1)) := by
  refine Eq.trans ?_ (d3 m c)
  show after oE (RD m c) _ = _
  generalize RD m c = Wx
  simp only [oA, oB, oC, oD, oE, o2a, o2r, o3a, o3r, o4, ops, List.take_succ_cons, List.take_zero, List.drop_succ_cons, List.drop_zero]
  after_results_simp
theorem e27 : RE m c (Proc.devRef .tc main_v27) = Cert.ReferenceIdeal.ReadP.val_main_v27 (F := Ideal) (m ((c.tc : Thread nD τ).loc main_arg1)) (m ((c.tc : Thread nD τ).loc main_arg2)) := by
  show after oE (RD m c) _ = _
  have h3 := d3 m c
  have h21 := d21 m c
  generalize RD m c = Wx at h3 h21 ⊢
  simp only [oA, oB, oC, oD, oE, o2a, o2r, o3a, o3r, o4, ops, List.take_succ_cons, List.take_zero, List.drop_succ_cons, List.drop_zero]
  after_results_simp
  rw [h3, h21]
  rfl
theorem e43 : RE m c (Proc.devRef .tc main_v43) = Cert.ReferenceIdeal.ReadP.val_main_v43 (F := Ideal) (m ((c.tc : Thread nD τ).loc main_arg1)) (m ((c.tc : Thread nD τ).loc main_arg2)) := by
  show after oE (RD m c) _ = _
  have h1 := d1 m c
  have h3 := d3 m c
  have h21 := d21 m c
  generalize RD m c = Wx at h1 h3 h21 ⊢
  simp only [oA, oB, oC, oD, oE, o2a, o2r, o3a, o3r, o4, ops, List.take_succ_cons, List.take_zero, List.drop_succ_cons, List.drop_zero]
  after_results_simp
  rw [h1, h3, h21]
  rfl
theorem e44 : RE m c (Proc.devRef .tc main_v44) = Cert.ReferenceIdeal.ReadP.val_main_v44 (F := Ideal) (m ((c.tc : Thread nD τ).loc main_arg3)) := by
  show after oE (RD m c) _ = _
  have h := dArg m c main_arg3 (by simp)
  generalize RD m c = Wx at h ⊢
  simp only [oA, oB, oC, oD, oE, o2a, o2r, o3a, o3r, o4, ops, List.take_succ_cons, List.take_zero, List.drop_succ_cons, List.drop_zero]
  after_results_simp
  rw [h]
  rfl
theorem eArg (k : Ref sig .tc) (hk : k ∈ [main_arg0, main_arg4, main_arg5, main_arg6, main_arg7, main_arg8]) :
    RE m c (Proc.devRef .tc k) = R0 m c (Proc.devRef .tc k) := by
  refine Eq.trans ?_ (dArg m c k (by
    simp only [List.mem_cons, List.mem_singleton, List.not_mem_nil, or_false] at hk ⊢
    rcases hk with rfl | rfl | rfl | rfl | rfl | rfl <;> simp))
  show after oE (RD m c) _ = _
  generalize RD m c = Wx
  simp only [List.mem_cons, List.mem_singleton, List.not_mem_nil, or_false] at hk
  rcases hk with rfl | rfl | rfl | rfl | rfl | rfl <;> (simp only [oA, oB, oC, oD, oE, o2a, o2r, o3a, o3r, o4, ops, List.take_succ_cons, List.take_zero, List.drop_succ_cons, List.drop_zero]; after_results_simp)

/-! ### Layer 1 -/

theorem f66 : R2a m c (Proc.devRef .tc main_v66) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after o2a (RE m c) _ = _
  have h1 := e1 m c
  have h3 := e3 m c
  have h27 := e27 m c
  have h43 := e43 m c
  have h44 := e44 m c
  have ha0 : RE m c (Proc.devRef .tc main_arg0) = (m ((c.tc : Thread nD τ).loc main_arg0)) := eArg m c main_arg0 (by simp)
  have ha4 : RE m c (Proc.devRef .tc main_arg4) = (m ((c.tc : Thread nD τ).loc main_arg4)) := eArg m c main_arg4 (by simp)
  generalize RE m c = Wx at h1 h3 h27 h43 h44 ha0 ha4 ⊢
  simp only [oA, oB, oC, oD, oE, o2a, o2r, o3a, o3r, o4, ops, List.take_succ_cons, List.take_zero, List.drop_succ_cons, List.drop_zero]
  after_results_simp
  rw [h1, h3, h27, h43, h44, ha0, ha4]
  rfl
theorem g67 : R2 m c (Proc.devRef .tc main_v67) = Cert.ReferenceIdeal.ReadP.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (relu_v67 (R2a m c)).trans ?_
  rw [f66 m c]
  rfl
/-- What layer 1's two stretches leave alone. -/
theorem gKeep (k : Ref sig .tc) (hk : k ∈ [main_v1, main_v3, main_v27, main_v43, main_arg5, main_arg6, main_arg7, main_arg8]) :
    R2 m c (Proc.devRef .tc k) = RE m c (Proc.devRef .tc k) := by
  show after o2r (after o2a (RE m c)) _ = _
  generalize RE m c = Wx
  simp only [List.mem_cons, List.mem_singleton, List.not_mem_nil, or_false] at hk
  rcases hk with rfl | rfl | rfl | rfl | rfl | rfl | rfl | rfl <;> (simp only [oA, oB, oC, oD, oE, o2a, o2r, o3a, o3r, o4, ops, List.take_succ_cons, List.take_zero, List.drop_succ_cons, List.drop_zero]; after_results_simp)

/-! ### Layer 2 -/

theorem i90 : R3a m c (Proc.devRef .tc main_v90) = Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after o3a (R2 m c) _ = _
  have h67 := g67 m c
  have h1 := (gKeep m c main_v1 (by simp)).trans (e1 m c)
  have h3 := (gKeep m c main_v3 (by simp)).trans (e3 m c)
  have h27 := (gKeep m c main_v27 (by simp)).trans (e27 m c)
  have h43 := (gKeep m c main_v43 (by simp)).trans (e43 m c)
  have ha5 : R2 m c (Proc.devRef .tc main_arg5) = (m ((c.tc : Thread nD τ).loc main_arg5)) := (gKeep m c main_arg5 (by simp)).trans (eArg m c main_arg5 (by simp))
  have ha6 : R2 m c (Proc.devRef .tc main_arg6) = (m ((c.tc : Thread nD τ).loc main_arg6)) := (gKeep m c main_arg6 (by simp)).trans (eArg m c main_arg6 (by simp))
  generalize R2 m c = Wx at h67 h1 h3 h27 h43 ha5 ha6 ⊢
  simp only [oA, oB, oC, oD, oE, o2a, o2r, o3a, o3r, o4, ops, List.take_succ_cons, List.take_zero, List.drop_succ_cons, List.drop_zero]
  after_results_simp
  rw [h67, h1, h3, h27, h43, ha5, ha6]
  rfl
theorem j91 : R3 m c (Proc.devRef .tc main_v91) = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (relu_v91 (R3a m c)).trans ?_
  rw [i90 m c]
  rfl
/-- What layer 2's two stretches leave alone. -/
theorem jKeep (k : Ref sig .tc) (hk : k ∈ [main_v67, main_arg7, main_arg8]) :
    R3 m c (Proc.devRef .tc k) = R2 m c (Proc.devRef .tc k) := by
  show after o3r (after o3a (R2 m c)) _ = _
  generalize R2 m c = Wx
  simp only [List.mem_cons, List.mem_singleton, List.not_mem_nil, or_false] at hk
  rcases hk with rfl | rfl | rfl <;> (simp only [oA, oB, oC, oD, oE, o2a, o2r, o3a, o3r, o4, ops, List.take_succ_cons, List.take_zero, List.drop_succ_cons, List.drop_zero]; after_results_simp)

/-! ### The head -/

theorem k97 : R4 m c (Proc.devRef .tc main_v97) = Cert.ReferenceIdeal.ReadP.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after o4 (R3 m c) _ = _
  have h67 := (jKeep m c main_v67 (by simp)).trans (g67 m c)
  have h91 := j91 m c
  have ha7 : R3 m c (Proc.devRef .tc main_arg7) = (m ((c.tc : Thread nD τ).loc main_arg7)) :=
    (jKeep m c main_arg7 (by simp)).trans ((gKeep m c main_arg7 (by simp)).trans (eArg m c main_arg7 (by simp)))
  have ha8 : R3 m c (Proc.devRef .tc main_arg8) = (m ((c.tc : Thread nD τ).loc main_arg8)) :=
    (jKeep m c main_arg8 (by simp)).trans ((gKeep m c main_arg8 (by simp)).trans (eArg m c main_arg8 (by simp)))
  generalize R3 m c = Wx at h67 h91 ha7 ha8 ⊢
  simp only [oA, oB, oC, oD, oE, o2a, o2r, o3a, o3r, o4, ops, List.take_succ_cons, List.take_zero, List.drop_succ_cons, List.drop_zero]
  after_results_simp
  rw [h67, h91, ha7, ha8]
  rfl

/-- The result buffer after the whole line. -/
theorem result : after (ops (F := Ideal)) (launchContents m c) (Proc.devRef .tc main_v97)
    = Cert.ReferenceIdeal.ReadP.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_split]
  simp only [after_append]
  exact k97 m c

end Boundaries

/-! ## The run -/

set_option maxRecDepth 65536 in
set_option maxHeartbeats 50000000 in
/-- Every weakly fair execution of the reference's @main terminates with the result at its last stage of the
    arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = Cert.ReferenceIdeal.ReadP.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v97).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Hand

end
-- ==== Proof.lean ====
/-
  A two-layer graph convolution with a concatenating head, computed by seven kernels among host operations, against
  the plain array program. At the ideal values (a float an extended real, every operation exact, a change of float
  format the identity) the two programs compute the same function of the nine argument arrays:
  * each projection kernel's matrix product accumulated into zero is the reference's matrix product: the same sum;
  * each edge kernel multiplies a gathered row by its edge's norm with the factors in the other order: multiplication
    of extended reals is commutative;
  * each node kernel's aggregate plus squared-degree-scaled self term plus bias, rectified, is the reference's, term
    for term;
  * the head kernel adds two 128-term products where the reference takes one 256-term product of the joined outputs:
    a sum over 256 terms is the sum of its first 128 and its last 128 — addition of extended reals is commutative and
    associative, so neither this nor anything else here asks the inputs to be finite.
  The gathers and scatter-adds stay on the host in both programs, applied to equal operands, and are never opened.
  The three frames: the two kernel programs' are their launches over the seventeen segments; the reference's is its run
  with the result dropped. The kernel's idealization rewrote no operation, so there is nothing to preserve.
-/
import proofs.«100481_j63917703299286_2_alg».proof.Defs
import proofs.«100481_j63917703299286_2_alg».proof.Proof.Gen.Kernel
import proofs.«100481_j63917703299286_2_alg».proof.Proof.Gen.Kernel.Skeleton
import proofs.«100481_j63917703299286_2_alg».proof.Proof.Gen.Kernel.Launch
import proofs.«100481_j63917703299286_2_alg».proof.Proof.Gen.Kernel.Points
import proofs.«100481_j63917703299286_2_alg».proof.Proof.Gen.Kernel.Frame
import proofs.«100481_j63917703299286_2_alg».proof.Proof.Gen.KernelIdeal
import proofs.«100481_j63917703299286_2_alg».proof.Proof.Gen.KernelIdeal.Skeleton
import proofs.«100481_j63917703299286_2_alg».proof.Proof.Gen.KernelIdeal.Launch
import proofs.«100481_j63917703299286_2_alg».proof.Proof.Gen.KernelIdeal.Points
import proofs.«100481_j63917703299286_2_alg».proof.Proof.Gen.KernelIdeal.Frame
import proofs.«100481_j63917703299286_2_alg».proof.Proof.Gen.ReferenceIdeal
import proofs.«100481_j63917703299286_2_alg».proof.Proof.Gen.Pre_finite_inputs
import proofs.«100481_j63917703299286_2_alg».proof.Proof.KernelRun
import proofs.«100481_j63917703299286_2_alg».proof.Proof.Bridge
import proofs.«100481_j63917703299286_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both idealized programs end with the network function of the (agreeing) arguments in their result buffers. -/
theorem algebraic : Cert.algebraic_KernelIdeal_ReferenceIdeal := by
  intro m ρ m' ρ' _ hagree
  refine ⟨fun c => Cert.Proof.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Run.run_named (F := Ideal) m ρ)
    exact ⟨(h c).1.trans (Cert.Proof.Net.kernel_net m ρ c), (h c).2⟩
  · refine (θ_run Cert.ReferenceIdeal.defs _ _).mono (fun r h c => ?_) (Cert.ReferenceIdeal.Hand.run m' ρ')
    refine ⟨(h c).1.trans ?_, (h c).2⟩
    obtain ⟨e0, e1, e2, e3, e4, e5, e6, e7, e8⟩ := hagree c
    rw [Cert.Proof.Net.ref_net, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
